-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.sign_bit.Statement Cert.KernelIdeal.S2048x512 .f32
  ∧ IdealRules.sign_bit.Statement Cert.KernelIdeal.S2048x32 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S512x784 : Shape := ⟨2, ![512, 784]⟩
abbrev S512 : Shape := ⟨1, ![512]⟩
abbrev S32x512 : Shape := ⟨2, ![32, 512]⟩
abbrev S32 : Shape := ⟨1, ![32]⟩
abbrev S10x32 : Shape := ⟨2, ![10, 32]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S512x784 : S_.BroadcastsInDim S512x784 (![] : Fin 0 → Fin S512x784.rank)
  reducesTo_S512x784_S_d0_1 : S512x784.ReducesTo [0, 1] S_
  bcast_S_S512 : S_.BroadcastsInDim S512 (![] : Fin 0 → Fin S512.rank)
  reducesTo_S512_S_d0 : S512.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S10x32 : S_.BroadcastsInDim S10x32 (![] : Fin 0 → Fin S10x32.rank)
  reducesTo_S10x32_S_d0_1 : S10x32.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg6 : FVec F S512 .f32) (main_arg12 : FVec F S32 .f32) (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_cst_28 : FVec F S_ .f32 := constant S_ .f32 0x00000000#32
  let main_v74 : FVec F S512 .f32 := broadcastInDim S512 ![] bcast_S_S512 main_cst_28
  let main_v75 : IVec S512 1 := cmpf .oge main_arg6 main_v74
  let main_c_29 : IVec S_ 1 := constantI S_ 1 1#1
  let main_v76 : IVec S_ 1 := (fun x v => Host.reduce IntOp.andi x v reducesTo_S512_S_d0 h_S_) main_v75 main_c_29
  let main_v77 : IVec S_ 1 := andi main_v73 main_v76
  let main_cst_30 : FVec F S_ .f32 := constant S_ .f32 0x00000000#32
  let main_v78 : FVec F S32 .f32 := broadcastInDim S32 ![] bcast_S_S32 main_cst_30
  let main_v79 : IVec S32 1 := cmpf .oge main_arg12 main_v78
  let main_c_31 : IVec S_ 1 := constantI S_ 1 1#1
  let main_v80 : IVec S_ 1 := (fun x v => Host.reduce IntOp.andi x v reducesTo_S32_S_d0 h_S_) main_v79 main_c_31
  let main_v81 : IVec S_ 1 := andi main_v77 main_v80
  main_v81

def fn_part3 {F : FTy → Type} [FloatOps F] (main_arg6 : FVec F S512 .f32) (main_arg11 : FVec F S32 .f32) (main_arg12 : FVec F S32 .f32) (main_arg13 : FVec F S10x32 .f32) (main_arg14 : FVec F S10 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S10x32 .f32 := Host.absf main_arg13
  let main_cst_24 : FVec F S_ .f32 := constant S_ .f32 0x7F800000#32
  let main_v65 : FVec F S10x32 .f32 := broadcastInDim S10x32 ![] bcast_S_S10x32 main_cst_24
  let main_v66 : IVec S10x32 1 := cmpf .olt main_v64 main_v65
  let main_c_25 : IVec S_ 1 := constantI S_ 1 1#1
  let main_v67 : IVec S_ 1 := (fun x v => Host.reduce IntOp.andi x v reducesTo_S10x32_S_d0_1 h_S_) main_v66 main_c_25
  fn_part4 (F := F) main_arg6 main_arg12 main_arg14 main_v63 main_v67

def fn_part2 {F : FTy → Type} [FloatOps F] (main_arg6 : FVec F S512 .f32) (main_arg7 : FVec F S32x512 .f32) (main_arg8 : FVec F S32 .f32) (main_arg9 : FVec F S32 .f32) (main_arg10 : FVec F S32 .f32) (main_arg11 : FVec F S32 .f32) (main_arg12 : FVec F S32 .f32) (main_arg13 : FVec F S10x32 .f32) (main_arg14 : FVec F S10 .f32) (main_v33 : IVec S_ 1) : IVec S_ 1 :=
  let main_v34 : FVec F S32x512 .f32 := Host.absf main_arg7
  let main_cst_12 : FVec F S_ .f32 := constant S_ .f32 0x7F800000#32
  let main_v35 : FVec F S32x512 .f32 := broadcastInDim S32x512 ![] bcast_S_S32x512 main_cst_12
  let main_v36 : IVec S32x512 1 := cmpf .olt main_v34 main_v35
  let main_c_13 : IVec S_ 1 := constantI S_ 1 1#1
  let main_v37 : IVec S_ 1 := (fun x v => Host.reduce IntOp.andi x v reducesTo_S32x512_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg6 main_arg11 main_arg12 main_arg13 main_arg14 main_v48 main_v49 main_v50

def fn_part1 {F : FTy → Type} [FloatOps F] (main_arg4 : FVec F S512 .f32) (main_arg5 : FVec F S512 .f32) (main_arg6 : FVec F S512 .f32) (main_arg7 : FVec F S32x512 .f32) (main_arg8 : FVec F S32 .f32) (main_arg9 : FVec F S32 .f32) (main_arg10 : FVec F S32 .f32) (main_arg11 : FVec F S32 .f32) (main_arg12 : FVec F S32 .f32) (main_arg13 : FVec F S10x32 .f32) (main_arg14 : FVec F S10 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg6 main_arg7 main_arg8 main_arg9 main_arg10 main_arg11 main_arg12 main_arg13 main_arg14 main_v33

def fn {F : FTy → Type} [FloatOps F] (main_arg0 : FVec F S65536x784 .f32) (main_arg1 : FVec F S512x784 .f32) (main_arg2 : FVec F S512 .f32) (main_arg3 : FVec F S512 .f32) (main_arg4 : FVec F S512 .f32) (main_arg5 : FVec F S512 .f32) (main_arg6 : FVec F S512 .f32) (main_arg7 : FVec F S32x512 .f32) (main_arg8 : FVec F S32 .f32) (main_arg9 : FVec F S32 .f32) (main_arg10 : FVec F S32 .f32) (main_arg11 : FVec F S32 .f32) (main_arg12 : FVec F S32 .f32) (main_arg13 : FVec F S10x32 .f32) (main_arg14 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S512x784 .f32 := Host.absf main_arg1
  let main_cst_0 : FVec F S_ .f32 := constant S_ .f32 0x7F800000#32
  let main_v5 : FVec F S512x784 .f32 := broadcastInDim S512x784 ![] bcast_S_S512x784 main_cst_0
  let main_v6 : IVec S512x784 1 := cmpf .olt main_v4 main_v5
  let main_c_1 : IVec S_ 1 := constantI S_ 1 1#1
  let main_v7 : IVec S_ 1 := (fun x v => Host.reduce IntOp.andi x v reducesTo_S512x784_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x784 : Shape := ⟨2, ![65536, 784]⟩
abbrev S512x784 : Shape := ⟨2, ![512, 784]⟩
abbrev S512 : Shape := ⟨1, ![512]⟩
abbrev S32x512 : Shape := ⟨2, ![32, 512]⟩
abbrev S32 : Shape := ⟨1, ![32]⟩
abbrev S10x32 : Shape := ⟨2, ![10, 32]⟩
abbrev S10 : Shape := ⟨1, ![10]⟩
abbrev S_ : Shape := ⟨0, ![]⟩
abbrev S1x512 : Shape := ⟨2, ![1, 512]⟩
abbrev S1x32 : Shape := ⟨2, ![1, 32]⟩
abbrev S1x10 : Shape := ⟨2, ![1, 10]⟩
abbrev S65536x10 : Shape := ⟨2, ![65536, 10]⟩
abbrev S2048x784 : Shape := ⟨2, ![2048, 784]⟩
abbrev S2048x10 : Shape := ⟨2, ![2048, 10]⟩
abbrev S2048x512 : Shape := ⟨2, ![2048, 512]⟩
abbrev S2048x32 : Shape := ⟨2, ![2048, 32]⟩

abbrev nBuf : Space → Nat
  | .hbm => 43
  | .vmem => 12
  | .smem => 0
  | _ => 0

abbrev bufTy : (tb : Table) → Fin (tcTables nBuf tb) → BufTy
  | .hbm, ⟨0, _⟩ => ⟨S65536x784, .f32⟩
  | .hbm, ⟨1, _⟩ => ⟨S512x784, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S32x512, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S10x32, .f32⟩
  | .hbm, ⟨14, _⟩ => ⟨S10, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S1x512, .f32⟩
  | .hbm, ⟨32, _⟩ => ⟨S1x512, .f32⟩
  | .hbm, ⟨33, _⟩ => ⟨S1x32, .f32⟩
  | .hbm, ⟨34, _⟩ => ⟨S1x32, .f32⟩
  | .hbm, ⟨35, _⟩ => ⟨S1x10, .f32⟩
  | .hbm, ⟨36, _⟩ => ⟨S512x784, .f32⟩
  | .hbm, ⟨37, _⟩ => ⟨S512x784, .bf16⟩
  | .hbm, ⟨38, _⟩ => ⟨S32x512, .f32⟩
  | .hbm, ⟨39, _⟩ => ⟨S32x512, .bf16⟩
  | .hbm, ⟨40, _⟩ => ⟨S10x32, .f32⟩
  | .hbm, ⟨41, _⟩ => ⟨S10x32, .bf16⟩
  | .hbm, ⟨42, _⟩ => ⟨S65536x10, .f32⟩
  | .local _ .vmem, ⟨0, _⟩ => ⟨S2048x784, .f32⟩
  | .local _ .vmem, ⟨1, _⟩ => ⟨S2048x784, .f32⟩
  | .local _ .vmem, ⟨2, _⟩ => ⟨S512x784, .bf16⟩
  | .local _ .vmem, ⟨3, _⟩ => ⟨S1x512, .f32⟩
  | .local _ .vmem, ⟨4, _⟩ => ⟨S1x512, .f32⟩
  | .local _ .vmem, ⟨5, _⟩ => ⟨S32x512, .bf16⟩
  | .local _ .vmem, ⟨6, _⟩ => ⟨S1x32, .f32⟩
  | .local _ .vmem, ⟨7, _⟩ => ⟨S1x32, .f32⟩
  | .local _ .vmem, ⟨8, _⟩ => ⟨S10x32, .bf16⟩
  | .local _ .vmem, ⟨9, _⟩ => ⟨S1x10, .f32⟩
  | .local _ .vmem, ⟨10, _⟩ => ⟨S2048x10, .f32⟩
  | .local _ .vmem, ⟨11, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S512 : S_.BroadcastsInDim S512 (![] : Fin 0 → Fin S512.rank)
  bcast_S_S32 : S_.BroadcastsInDim S32 (![] : Fin 0 → Fin S32.rank)
  shapeCasts_S512_S1x512 : S512.ShapeCasts S1x512
  shapeCasts_S32_S1x32 : S32.ShapeCasts S1x32
  shapeCasts_S10_S1x10 : S10.ShapeCasts S1x10
  bitsLt_bf16_f32 : FTy.bits .bf16 < FTy.bits .f32
  inb_S2048x784_S2048x784_0_0 : ∀ a, (![0, 0] : Fin 2 → Nat) a + S2048x784.size a ≤ S2048x784.size a
  h_S2048x784 : 0 < S2048x784.numel
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S10x32_S10x32_0_0 : ∀ a, (![0, 0] : Fin 2 → Nat) a + S10x32.size a ≤ S10x32.size a
  h_S10x32 : 0 < S10x32.numel
  shapeCasts_S10x32_S10x32 : S10x32.ShapeCasts S10x32
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  dot_S2048x784_S512x784_S2048x512_1_1_0_0_n_n_wf : DotDims.WF S2048x784 S512x784 S2048x512 [1] [1] [0] [0] [] []
  dot_S2048x512_S32x512_S2048x32_1_1_0_0_n_n_wf : DotDims.WF S2048x512 S32x512 S2048x32 [1] [1] [0] [0] [] []
  dot_S2048x32_S10x32_S2048x10_1_1_0_0_n_n_wf : DotDims.WF S2048x32 S10x32 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x784.size a ≤ S512x784.size a
  hwx0_1 : ∀ i : grid0.Coords, EltTy.bits .bf16 = 32 ∨ (Rect.block (s := S512x784) S512x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .bf16 = 32 ∨ (Rect.block (s := S32x512) S32x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x32.size a ≤ S10x32.size a
  hwx0_7 : ∀ i : grid0.Coords, EltTy.bits .bf16 = 32 ∨ (Rect.block (s := S10x32) S10x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x10.size a ≤ S65536x10.size a
  hwx0_9 : ∀ i : grid0.Coords, EltTy.bits .f32 = 32 ∨ (Rect.block (s := S65536x10) S2048x10.size (cc0_transform_9 i) (hinb0_9 i)).WholeWords (EltTy.packing .f32)

variable [Facts₀]

def dot_S2048x784_S512x784_S2048x512_1_1_0_0_n_n : DotDims S2048x784 S512x784 S2048x512 where
  lhsContracting := [1]
  rhsContracting := [1]
  lhsNonContracting := [0]
  rhsNonContracting := [0]
  lhsBatch := []
  rhsBatch := []
  wf := dot_S2048x784_S512x784_S2048x512_1_1_0_0_n_n_wf
def dot_S2048x512_S32x512_S2048x32_1_1_0_0_n_n : DotDims S2048x512 S32x512 S2048x32 where
  lhsContracting := [1]
  rhsContracting := [1]
  lhsNonContracting := [0]
  rhsNonContracting := [0]
  lhsBatch := []
  rhsBatch := []
  wf := dot_S2048x512_S32x512_S2048x32_1_1_0_0_n_n_wf
def dot_S2048x32_S10x32_S2048x10_1_1_0_0_n_n : DotDims S2048x32 S10x32 S2048x10 where
  lhsContracting := [1]
  rhsContracting := [1]
  lhsNonContracting := [0]
  rhsNonContracting := [0]
  lhsBatch := []
  rhsBatch := []
  wf := dot_S2048x32_S10x32_S2048x10_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S10x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S2048x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x784 : Shape := ⟨2, ![65536, 784]⟩
abbrev S512x784 : Shape := ⟨2, ![512, 784]⟩
abbrev S512 : Shape := ⟨1, ![512]⟩
abbrev S32x512 : Shape := ⟨2, ![32, 512]⟩
abbrev S32 : Shape := ⟨1, ![32]⟩
abbrev S10x32 : Shape := ⟨2, ![10, 32]⟩
abbrev S10 : Shape := ⟨1, ![10]⟩
abbrev S784x512 : Shape := ⟨2, ![784, 512]⟩
abbrev S65536x512 : Shape := ⟨2, ![65536, 512]⟩
abbrev S1x512 : Shape := ⟨2, ![1, 512]⟩
abbrev S_ : Shape := ⟨0, ![]⟩
abbrev S512x32 : Shape := ⟨2, ![512, 32]⟩
abbrev S65536x32 : Shape := ⟨2, ![65536, 32]⟩
abbrev S1x32 : Shape := ⟨2, ![1, 32]⟩
abbrev S32x10 : Shape := ⟨2, ![32, 10]⟩
abbrev S65536x10 : Shape := ⟨2, ![65536, 10]⟩
abbrev S1x10 : Shape := ⟨2, ![1, 10]⟩

abbrev nBuf : Space → Nat
  | .hbm => 83
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S512x784, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S32x512, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S10x32, .f32⟩
  | .hbm, ⟨14, _⟩ => ⟨S10, .f32⟩
  | .hbm, ⟨15, _⟩ => ⟨S512x784, .f32⟩
  | .hbm, ⟨16, _⟩ => ⟨S784x512, .f32⟩
  | .hbm, ⟨17, _⟩ => ⟨S65536x512, .f32⟩
  | .hbm, ⟨18, _⟩ => ⟨S1x512, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S65536x512, .f32⟩
  | .hbm, ⟨27, _⟩ => ⟨S65536x512, .f32⟩
  | .hbm, ⟨28, _⟩ => ⟨S1x512, .f32⟩
  | .hbm, ⟨29, _⟩ => ⟨S65536x512, .f32⟩
  | .hbm, ⟨30, _⟩ => ⟨S65536x512, .f32⟩
  | .hbm, ⟨31, _⟩ => ⟨S1x512, .f32⟩
  | .hbm, ⟨32, _⟩ => ⟨S65536x512, .f32⟩
  | .hbm, ⟨33, _⟩ => ⟨S65536x512, .f32⟩
  | .hbm, ⟨34, _⟩ => ⟨S1x512, .f32⟩
  | .hbm, ⟨35, _⟩ => ⟨S65536x512, .f32⟩
  | .hbm, ⟨36, _⟩ => ⟨S65536x512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S65536x512, .f32⟩
  | .hbm, ⟨41, _⟩ => ⟨S65536x512, .f32⟩
  | .hbm, ⟨42, _⟩ => ⟨S_, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S32x512, .f32⟩
  | .hbm, ⟨47, _⟩ => ⟨S512x32, .f32⟩
  | .hbm, ⟨48, _⟩ => ⟨S65536x32, .f32⟩
  | .hbm, ⟨49, _⟩ => ⟨S1x32, .f32⟩
  | .hbm, ⟨50, _⟩ => ⟨S65536x32, .f32⟩
  | .hbm, ⟨51, _⟩ => ⟨S65536x32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S32, .f32⟩
  | .hbm, ⟨56, _⟩ => ⟨S1x32, .f32⟩
  | .hbm, ⟨57, _⟩ => ⟨S65536x32, .f32⟩
  | .hbm, ⟨58, _⟩ => ⟨S65536x32, .f32⟩
  | .hbm, ⟨59, _⟩ => ⟨S1x32, .f32⟩
  | .hbm, ⟨60, _⟩ => ⟨S65536x32, .f32⟩
  | .hbm, ⟨61, _⟩ => ⟨S65536x32, .f32⟩
  | .hbm, ⟨62, _⟩ => ⟨S1x32, .f32⟩
  | .hbm, ⟨63, _⟩ => ⟨S65536x32, .f32⟩
  | .hbm, ⟨64, _⟩ => ⟨S65536x32, .f32⟩
  | .hbm, ⟨65, _⟩ => ⟨S1x32, .f32⟩
  | .hbm, ⟨66, _⟩ => ⟨S65536x32, .f32⟩
  | .hbm, ⟨67, _⟩ => ⟨S65536x32, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S65536x32, .f32⟩
  | .hbm, ⟨72, _⟩ => ⟨S65536x32, .f32⟩
  | .hbm, ⟨73, _⟩ => ⟨S_, .f32⟩
  | .hbm, ⟨74, _⟩ => ⟨S65536x32, .f32⟩
  | .hbm, ⟨75, _⟩ => ⟨S65536x32, .f32⟩
  | .hbm, ⟨76, _⟩ => ⟨S65536x32, .f32⟩
  | .hbm, ⟨77, _⟩ => ⟨S10x32, .f32⟩
  | .hbm, ⟨78, _⟩ => ⟨S32x10, .f32⟩
  | .hbm, ⟨79, _⟩ => ⟨S65536x10, .f32⟩
  | .hbm, ⟨80, _⟩ => ⟨S1x10, .f32⟩
  | .hbm, ⟨81, _⟩ => ⟨S65536x10, .f32⟩
  | .hbm, ⟨82, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_cst_4 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]

class Facts₀ : Prop where
  transposes_S512x784_S784x512_1_0 : S512x784.Transposes [1, 0] S784x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S512 : S_.BroadcastsInDim S512 (![] : Fin 0 → Fin S512.rank)
  bcast_S_S65536x512 : S_.BroadcastsInDim S65536x512 (![] : Fin 0 → Fin S65536x512.rank)
  transposes_S32x512_S512x32_1_0 : S32x512.Transposes [1, 0] S512x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S32 : S_.BroadcastsInDim S32 (![] : Fin 0 → Fin S32.rank)
  bcast_S_S65536x32 : S_.BroadcastsInDim S65536x32 (![] : Fin 0 → Fin S65536x32.rank)
  transposes_S10x32_S32x10_1_0 : S10x32.Transposes [1, 0] S32x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x784_S784x512_S65536x512_1_0_0_1_n_n_wf : DotDims.WF S65536x784 S784x512 S65536x512 [1] [0] [0] [1] [] []
  dot_S65536x512_S512x32_S65536x32_1_0_0_1_n_n_wf : DotDims.WF S65536x512 S512x32 S65536x32 [1] [0] [0] [1] [] []
  dot_S65536x32_S32x10_S65536x10_1_0_0_1_n_n_wf : DotDims.WF S65536x32 S32x10 S65536x10 [1] [0] [0] [1] [] []

variable [Facts₀]

def dot_S65536x784_S784x512_S65536x512_1_0_0_1_n_n : DotDims S65536x784 S784x512 S65536x512 where
  lhsContracting := [1]
  rhsContracting := [0]
  lhsNonContracting := [0]
  rhsNonContracting := [1]
  lhsBatch := []
  rhsBatch := []
  wf := dot_S65536x784_S784x512_S65536x512_1_0_0_1_n_n_wf
def dot_S65536x512_S512x32_S65536x32_1_0_0_1_n_n : DotDims S65536x512 S512x32 S65536x32 where
  lhsContracting := [1]
  rhsContracting := [0]
  lhsNonContracting := [0]
  rhsNonContracting := [1]
  lhsBatch := []
  rhsBatch := []
  wf := dot_S65536x512_S512x32_S65536x32_1_0_0_1_n_n_wf
def dot_S65536x32_S32x10_S65536x10_1_0_0_1_n_n : DotDims S65536x32 S32x10 S65536x10 where
  lhsContracting := [1]
  rhsContracting := [0]
  lhsNonContracting := [0]
  rhsNonContracting := [1]
  lhsBatch := []
  rhsBatch := []
  wf := dot_S65536x32_S32x10_S65536x10_1_0_0_1_n_n_wf

class Facts : Prop extends Facts₀ where

variable [Facts]
-- ==== Proof.Spec.lean ====
/-
  The two networks as functions of one input row.

  Both programs compute, for every row `a` of the input (784 features), a three-layer binarised
  perceptron: a product of the row with the SIGNS of the first weight matrix, an affine batch
  normalisation, the sign of the result, and so on twice more, the last layer without normalisation.
  They differ only in how the normalisation is written.  With `D` the product, `ι = rsqrt (v + ε)`:

    plain  :  ((D + b) - μ) * ι * g + β        then clipped to [-1, 1] before the sign is taken
    folded :  D * (g * ι) + (β + (b - μ) * (g * ι))        the sign taken directly

  `rowR` is the plain network, `rowK` the folded one over already prepared weights (their signs),
  scales `g * ι` and shifts `β + (b - μ) * (g * ι)`.  `outR` and `outK` are the two as functions of
  the fifteen argument arrays, index by index.
-/
import Idealize.ShloMosaic.PureOps.Ideal
import Idealize.ShloMosaic.PureOps.Ideal.Laws
import Idealize.ShloMosaic.Lib.ValueIdx
import Idealize.ShloMosaic.Lib.IdealHost

noncomputable section

namespace Cert.Mlp

open Idealize.ShloMosaic Idealize.ShloMosaic.ValueIdx
open scoped BigOperators

/-- A two-axis array of extended reals. -/
abbrev Arr2 (a b : Nat) : Type := (⟨2, ![a, b]⟩ : Shape).Idx → EReal
/-- A one-axis array of extended reals. -/
abbrev Arr1 (a : Nat) : Type := (⟨1, ![a]⟩ : Shape).Idx → EReal

/-- The variance offset ε, the binary value of the single-precision word nearest 1e-5. -/
abbrev eps : EReal := Ideal.ofBits .f32 0x3727C5AC#32
/-- The lower clipping bound, the word of -1. -/
abbrev lo : EReal := Ideal.ofBits .f32 0xBF800000#32
/-- The upper clipping bound, the word of 1. -/
abbrev hi : EReal := Ideal.ofBits .f32 0x3F800000#32

/-- Every entry of an array is a real number. -/
def AllReal {s : Shape} (a : s.Idx → EReal) : Prop := ∀ i, ∃ r : ℝ, a i = (r : EReal)

/-- The folded network on one row `a`: `W1 j i`, `W2 k j`, `W3 q k` are the prepared (already
    binarised) weights, `sc` / `sh` the per-unit scale and shift of the two normalised layers,
    `c3` the last bias; the result is output unit `q`. -/
def rowK (a : Fin 784 → EReal) (W1 : Fin 512 → Fin 784 → EReal) (sc1 sh1 : Fin 512 → EReal)
    (W2 : Fin 32 → Fin 512 → EReal) (sc2 sh2 : Fin 32 → EReal)
    (W3 : Fin 10 → Fin 32 → EReal) (c3 : Fin 10 → EReal) (q : Fin 10) : EReal :=
  (∑ k : Fin 32, Ideal.sign ((∑ j : Fin 512, Ideal.sign ((∑ i : Fin 784, a i * W1 j i) * sc1 j + sh1 j) * W2 k j)
      * sc2 k + sh2 k) * W3 q k) + c3 q

/-- The plain network on one row `a`, over the raw weights and normalisation parameters. -/
def rowR (a : Fin 784 → EReal) (w1 : Fin 512 → Fin 784 → EReal) (b1 g1 be1 m1 v1 : Fin 512 → EReal)
    (w2 : Fin 32 → Fin 512 → EReal) (b2 g2 be2 m2 v2 : Fin 32 → EReal)
    (w3 : Fin 10 → Fin 32 → EReal) (b3 : Fin 10 → EReal) (q : Fin 10) : EReal :=
  (∑ k : Fin 32, Ideal.sign (min hi (max lo
      ((((∑ j : Fin 512, Ideal.sign (min hi (max lo
            ((((∑ i : Fin 784, a i * Ideal.sign (w1 j i)) + b1 j) - m1 j) * Ideal.rsqrt (v1 j + eps) * g1 j + be1 j)))
          * Ideal.sign (w2 k j)) + b2 k) - m2 k) * Ideal.rsqrt (v2 k + eps) * g2 k + be2 k)))
    * Ideal.sign (w3 q k)) + b3 q

/-- The folded network as a function of the fifteen argument arrays. -/
def outK (x : Arr2 65536 784) (w1 : Arr2 512 784) (b1 g1 be1 m1 v1 : Arr1 512)
    (w2 : Arr2 32 512) (b2 g2 be2 m2 v2 : Arr1 32) (w3 : Arr2 10 32) (b3 : Arr1 10) : Arr2 65536 10 := fun o =>
  rowK (fun i => x (ix2 (o 0) i))
    (fun j i => Ideal.sign (w1 (ix2 j i)))
    (fun j => g1 (ix1 j) * Ideal.rsqrt (v1 (ix1 j) + eps))
    (fun j => be1 (ix1 j) + (b1 (ix1 j) - m1 (ix1 j)) * (g1 (ix1 j) * Ideal.rsqrt (v1 (ix1 j) + eps)))
    (fun k j => Ideal.sign (w2 (ix2 k j)))
    (fun k => g2 (ix1 k) * Ideal.rsqrt (v2 (ix1 k) + eps))
    (fun k => be2 (ix1 k) + (b2 (ix1 k) - m2 (ix1 k)) * (g2 (ix1 k) * Ideal.rsqrt (v2 (ix1 k) + eps)))
    (fun q k => Ideal.sign (w3 (ix2 q k)))
    (fun q => b3 (ix1 q)) (o 1)

/-- The plain network as a function of the fifteen argument arrays. -/
def outR (x : Arr2 65536 784) (w1 : Arr2 512 784) (b1 g1 be1 m1 v1 : Arr1 512)
    (w2 : Arr2 32 512) (b2 g2 be2 m2 v2 : Arr1 32) (w3 : Arr2 10 32) (b3 : Arr1 10) : Arr2 65536 10 := fun o =>
  rowR (fun i => x (ix2 (o 0) i))
    (fun j i => w1 (ix2 j i)) (fun j => b1 (ix1 j)) (fun j => g1 (ix1 j)) (fun j => be1 (ix1 j))
    (fun j => m1 (ix1 j)) (fun j => v1 (ix1 j))
    (fun k j => w2 (ix2 k j)) (fun k => b2 (ix1 k)) (fun k => g2 (ix1 k)) (fun k => be2 (ix1 k))
    (fun k => m2 (ix1 k)) (fun k => v2 (ix1 k))
    (fun q k => w3 (ix2 q k)) (fun q => b3 (ix1 q)) (o 1)

end Cert.Mlp

end
-- ==== Proof.Algebra.lean ====
/-
  The folded and the plain network agree on real data with non-negative variances.

  For reals D, b, μ, g, β and a variance v ≥ 0 the offset ε > 0 makes v + ε positive, so
  ι = rsqrt (v + ε) is a positive real and the two pre-activations are the same real number:

      D * (g * ι) + (β + (b - μ) * (g * ι))  =  ((D + b) - μ) * ι * g + β        (distributivity in ℝ).

  Clipping a real to [-1, 1] does not change its sign.  A product of a row of reals with a row of
  signs is a real, and so is a product of a row of signs with a row of signs; hence the argument
  applies layer after layer, and the two networks give the same output.
-/
import proofs.«123496_j18734647345307_2_alg».proof.Proof.Spec

noncomputable section

namespace Cert.Mlp

open Idealize.ShloMosaic Idealize.ShloMosaic.ValueIdx
open scoped BigOperators

/-- The word of 1 is the real one. -/
theorem hi_eq : hi = ((1 : ℝ) : EReal) := by
  show Ideal.ofBits .f32 0x3F800000#32 = _
  rw [Ideal.ofBits_one_f32]; rfl

/-- The word of -1 is the real minus one. -/
theorem lo_eq : lo = ((-1 : ℝ) : EReal) := by
  show Ideal.ofBits .f32 0xBF800000#32 = _
  simp [Ideal.ofBits, Ideal.ieee, -EReal.coe_mul, -EReal.coe_neg]; norm_num

/-- The offset ε is a positive real. -/
theorem eps_pos : ∃ e : ℝ, 0 < e ∧ eps = (e : EReal) := by
  refine ⟨_, ?_, show Ideal.ofBits .f32 0x3727C5AC#32 = _ by
    simp [Ideal.ofBits, Ideal.ieee, -EReal.coe_mul, -EReal.coe_neg]; rfl⟩
  positivity

/-- A finite sum of reals, read in the extended reals, is the real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sign of an extended real is one of the reals -1, 0, 1. -/
theorem sign_real (x : EReal) : ∃ r : ℝ, Ideal.sign x = (r : EReal) := by
  induction x using EReal.rec with
  | bot => exact ⟨-1, rfl⟩
  | top => exact ⟨1, rfl⟩
  | coe r => exact ⟨_, rfl⟩

/-- The product of a row of reals with the signs of a row is a real. -/
theorem dot_real {n : Nat} (a w : Fin n → EReal) (ha : ∀ i, ∃ r : ℝ, a i = (r : EReal)) :
    ∃ r : ℝ, (∑ i : Fin n, a i * Ideal.sign (w i)) = (r : EReal) := by
  choose a' ha' using ha
  choose s' hs' using fun i => sign_real (w i)
  refine ⟨∑ i : Fin n, a' i * s' i, ?_⟩
  rw [coe_sum]
  refine Finset.sum_congr rfl fun i _ => ?_
  rw [ha', hs', EReal.coe_mul]

/-- Clipping a real to [-1, 1] keeps its sign. -/
theorem sign_clip (r : ℝ) : Ideal.sign (min hi (max lo (r : EReal))) = Ideal.sign (r : EReal) := by
  rw [hi_eq, lo_eq, ← EReal.coe_strictMono.monotone.map_max, ← EReal.coe_strictMono.monotone.map_min]
  show ((SignType.sign (min 1 (max (-1) r)) : ℝ) : EReal) = ((SignType.sign r : ℝ) : EReal)
  congr 2
  rcases lt_trichotomy r 0 with h | h | h
  · rw [sign_neg h, sign_neg]
    exact lt_of_le_of_lt (min_le_right _ _) (max_lt (by norm_num) h)
  · subst h; norm_num
  · rw [sign_pos h, sign_pos]
    exact lt_min (by norm_num) (lt_max_of_lt_right h)

/-- One normalised unit: on reals with a non-negative variance the folded pre-activation and the clipped
    plain one have the same sign. -/
theorem unit_eq (D b g be mu v : EReal) (hD : ∃ r : ℝ, D = (r : EReal)) (hb : ∃ r : ℝ, b = (r : EReal))
    (hg : ∃ r : ℝ, g = (r : EReal)) (hbe : ∃ r : ℝ, be = (r : EReal)) (hmu : ∃ r : ℝ, mu = (r : EReal))
    (hv : ∃ r : ℝ, v = (r : EReal)) (hv0 : 0 ≤ v) :
    Ideal.sign (D * (g * Ideal.rsqrt (v + eps)) + (be + (b - mu) * (g * Ideal.rsqrt (v + eps))))
      = Ideal.sign (min hi (max lo ((D + b - mu) * Ideal.rsqrt (v + eps) * g + be))) := by
  obtain ⟨D, rfl⟩ := hD; obtain ⟨b, rfl⟩ := hb; obtain ⟨g, rfl⟩ := hg; obtain ⟨be, rfl⟩ := hbe
  obtain ⟨mu, rfl⟩ := hmu; obtain ⟨v, rfl⟩ := hv
  obtain ⟨e, he, hee⟩ := eps_pos
  have hv' : 0 ≤ v := EReal.coe_nonneg.mp hv0
  have hpos : 0 < v + e := by linarith
  have hr : Ideal.rsqrt ((v : EReal) + eps) = (((Real.sqrt (v + e))⁻¹ : ℝ) : EReal) := by
    rw [hee, ← EReal.coe_add, Ideal.rsqrt_coe, if_neg (not_lt.mpr hpos.le), if_neg hpos.ne']
  rw [hr]
  simp only [← EReal.coe_mul, ← EReal.coe_add, ← EReal.coe_sub]
  rw [sign_clip]
  congr 2
  ring

/-- The two networks agree: on real argument arrays with non-negative variances the folded network's output is
    the plain network's, index by index.  Layer by layer the activations are equal (`unit_eq`, the products being
    reals by `dot_real`), and the last layer is the same expression of equal activations. -/
theorem outK_eq_outR (x : Arr2 65536 784) (w1 : Arr2 512 784) (b1 g1 be1 m1 v1 : Arr1 512)
    (w2 : Arr2 32 512) (b2 g2 be2 m2 v2 : Arr1 32) (w3 : Arr2 10 32) (b3 : Arr1 10)
    (hx : AllReal x) (hb1 : AllReal b1) (hg1 : AllReal g1) (hbe1 : AllReal be1) (hm1 : AllReal m1) (hv1 : AllReal v1)
    (hb2 : AllReal b2) (hg2 : AllReal g2) (hbe2 : AllReal be2) (hm2 : AllReal m2) (hv2 : AllReal v2)
    (hv1' : ∀ i, 0 ≤ v1 i) (hv2' : ∀ i, 0 ≤ v2 i) :
    outK x w1 b1 g1 be1 m1 v1 w2 b2 g2 be2 m2 v2 w3 b3 = outR x w1 b1 g1 be1 m1 v1 w2 b2 g2 be2 m2 v2 w3 b3 := by
  funext o
  unfold outK outR rowK rowR
  congr 1
  refine Finset.sum_congr rfl fun k _ => ?_
  congr 1
  have hD : (∑ j : Fin 512, Ideal.sign ((∑ i : Fin 784, x (ix2 (o 0) i) * Ideal.sign (w1 (ix2 j i)))
          * (g1 (ix1 j) * Ideal.rsqrt (v1 (ix1 j) + eps))
          + (be1 (ix1 j) + (b1 (ix1 j) - m1 (ix1 j)) * (g1 (ix1 j) * Ideal.rsqrt (v1 (ix1 j) + eps))))
        * Ideal.sign (w2 (ix2 k j)))
      = ∑ j : Fin 512, Ideal.sign (min hi (max lo
          ((((∑ i : Fin 784, x (ix2 (o 0) i) * Ideal.sign (w1 (ix2 j i))) + b1 (ix1 j)) - m1 (ix1 j))
            * Ideal.rsqrt (v1 (ix1 j) + eps) * g1 (ix1 j) + be1 (ix1 j))))
        * Ideal.sign (w2 (ix2 k j)) :=
    Finset.sum_congr rfl fun j _ => congrArg (· * Ideal.sign (w2 (ix2 k j)))
      (unit_eq _ _ _ _ _ _ (dot_real _ _ fun i => hx _) (hb1 _) (hg1 _) (hbe1 _) (hm1 _) (hv1 _) (hv1' _))
  rw [hD]
  exact unit_eq _ _ _ _ _ _ (dot_real _ _ fun j => sign_real _) (hb2 _) (hg2 _) (hbe2 _) (hm2 _) (hv2 _) (hv2' _)

end Cert.Mlp

end
-- ==== Proof.RefRead.lean ====
/-
  The plain network read off the reference program, one output entry at a time.

  Every operation of the reference writes an array whose entry at an index is a function of the
  operands' entries at fixed indices: a pointwise operation at the same index, a transposition at the
  swapped pair, a broadcast of a vector along the rows at the column coordinate, a contraction as the
  sum over the shared coordinate.  Composing these readings layer by layer gives, at row `r`:
  the first activation at unit `j`, the second activation at unit `k`, and the output at unit `q`,
  each in the form in which the plain network `rowR` states it.
-/
import proofs.«123496_j18734647345307_2_alg».proof.Proof.Spec
import proofs.«123496_j18734647345307_2_alg».proof.Proof.Gen.ReferenceIdeal.Read

noncomputable section

namespace Cert.Mlp.Ref

open Cert.Mlp Idealize.ShloMosaic Idealize.ShloMosaic.ValueIdx
open Cert.ReferenceIdeal.Read
open scoped BigOperators

/-- A vector of 512 entries broadcast along 65536 rows: the entry at row `r`, column `j` is the
    vector's entry `j`. -/
theorem bcast512 (y : Arr1 512) (r : Fin 65536) (j : Fin 512) :
    val_main_v4 (F := Ideal) y (ix2 r j) = y (ix1 j) := by
  rw [val_main_v4_apply, val_main_v3_apply]
  exact congrArg y (funext fun a => Fin.ext (by match a with | ⟨0, _⟩ => rfl))

/-- The first contraction: row `r` of the input against the signs of row `j` of the first weights. -/
theorem dot1 (x0 : Arr2 65536 784) (x1 : Arr2 512 784) (r : Fin 65536) (j : Fin 512) :
    val_main_v2 (F := Ideal) x0 x1 (ix2 r j) = ∑ i : Fin 784, x0 (ix2 r i) * Ideal.sign (x1 (ix2 j i)) := by
  rw [val_main_v2_apply]
  refine Finset.sum_congr rfl fun i _ => ?_
  rw [val_main_v1_apply, val_main_v0_apply]
  have e1 : lidx_main_v2 (ix2 r j) i = ix2 r i :=
    funext fun a => Fin.ext (by match a with | ⟨0, _⟩ => rfl | ⟨1, _⟩ => rfl)
  have e2 : idx_main_v1 (ridx_main_v2 (ix2 r j) i) = ix2 j i :=
    funext fun a => Fin.ext (by match a with | ⟨0, _⟩ => rfl | ⟨1, _⟩ => rfl)
  rw [e1, e2, Ideal.hostUnary_sign_def]

/-- The reciprocal square root of the first variance plus the offset, at unit `j`. -/
theorem inv1 (x6 : Arr1 512) (j : Fin 512) :
    val_main_v8 (F := Ideal) x6 (ix1 j) = Ideal.rsqrt (x6 (ix1 j) + eps) := by
  rw [val_main_v8_apply, val_main_v7_apply, val_main_v6_apply, val_main_cst_apply]
  rfl

/-- The first activation at row `r`, unit `j`. -/
theorem layer1 (x0 : Arr2 65536 784) (x1 : Arr2 512 784) (x2 x3 x4 x5 x6 : Arr1 512)
    (r : Fin 65536) (j : Fin 512) :
    val_main_v22 (F := Ideal) x0 x1 x2 x3 x4 x5 x6 (ix2 r j)
      = Ideal.sign (min hi (max lo
          ((((∑ i : Fin 784, x0 (ix2 r i) * Ideal.sign (x1 (ix2 j i))) + x2 (ix1 j)) - x5 (ix1 j))
            * Ideal.rsqrt (x6 (ix1 j) + eps) * x3 (ix1 j) + x4 (ix1 j)))) := by
  rw [val_main_v22_apply, val_main_v21_apply, val_main_call0_v4_apply, val_main_call0_v3_apply,
    val_main_cst_1_apply, val_main_call0_v2_apply, val_main_call0_v1_apply, val_main_call0_v0_apply,
    val_main_cst_0_apply, val_main_v20_apply, val_main_v17_apply, val_main_v14_apply, val_main_v11_apply,
    val_main_v5_apply, dot1, bcast512,
    show val_main_v10 (F := Ideal) x5 (ix2 r j) = x5 (ix1 j) from bcast512 x5 r j,
    show val_main_v13 (F := Ideal) x6 (ix2 r j) = val_main_v8 (F := Ideal) x6 (ix1 j) from
      bcast512 (val_main_v8 (F := Ideal) x6) r j,
    inv1,
    show val_main_v16 (F := Ideal) x3 (ix2 r j) = x3 (ix1 j) from bcast512 x3 r j,
    show val_main_v19 (F := Ideal) x4 (ix2 r j) = x4 (ix1 j) from bcast512 x4 r j]
  rfl

/-- A vector of 32 entries broadcast along 65536 rows. -/
theorem bcast32 (y : Arr1 32) (r : Fin 65536) (k : Fin 32) :
    val_main_v27 (F := Ideal) y (ix2 r k) = y (ix1 k) := by
  rw [val_main_v27_apply, val_main_v26_apply]
  exact congrArg y (funext fun a => Fin.ext (by match a with | ⟨0, _⟩ => rfl))

/-- The second contraction: the first activations of row `r` against the signs of row `k` of the
    second weights. -/
theorem dot2 (x0 : Arr2 65536 784) (x1 : Arr2 512 784) (x2 x3 x4 x5 x6 : Arr1 512) (x7 : Arr2 32 512)
    (r : Fin 65536) (k : Fin 32) :
    val_main_v25 (F := Ideal) x0 x1 x2 x3 x4 x5 x6 x7 (ix2 r k)
      = ∑ j : Fin 512, val_main_v22 (F := Ideal) x0 x1 x2 x3 x4 x5 x6 (ix2 r j) * Ideal.sign (x7 (ix2 k j)) := by
  rw [val_main_v25_apply]
  refine Finset.sum_congr rfl fun j _ => ?_
  rw [val_main_v24_apply, val_main_v23_apply]
  have e1 : lidx_main_v25 (ix2 r k) j = ix2 r j :=
    funext fun a => Fin.ext (by match a with | ⟨0, _⟩ => rfl | ⟨1, _⟩ => rfl)
  have e2 : idx_main_v24 (ridx_main_v25 (ix2 r k) j) = ix2 k j :=
    funext fun a => Fin.ext (by match a with | ⟨0, _⟩ => rfl | ⟨1, _⟩ => rfl)
  rw [e1, e2, Ideal.hostUnary_sign_def]

/-- The reciprocal square root of the second variance plus the offset, at unit `k`. -/
theorem inv2 (x12 : Arr1 32) (k : Fin 32) :
    val_main_v31 (F := Ideal) x12 (ix1 k) = Ideal.rsqrt (x12 (ix1 k) + eps) := by
  rw [val_main_v31_apply, val_main_v30_apply, val_main_v29_apply, val_main_cst_2_apply]
  rfl

/-- The second activation at row `r`, unit `k`. -/
theorem layer2 (x0 : Arr2 65536 784) (x1 : Arr2 512 784) (x2 x3 x4 x5 x6 : Arr1 512)
    (x7 : Arr2 32 512) (x8 x9 x10 x11 x12 : Arr1 32) (r : Fin 65536) (k : Fin 32) :
    val_main_v45 (F := Ideal) x0 x1 x2 x3 x4 x5 x6 x7 x8 x9 x10 x11 x12 (ix2 r k)
      = Ideal.sign (min hi (max lo
          ((((∑ j : Fin 512, Ideal.sign (min hi (max lo
            ((((∑ i : Fin 784, x0 (ix2 r i) * Ideal.sign (x1 (ix2 j i))) + x2 (ix1 j)) - x5 (ix1 j))
              * Ideal.rsqrt (x6 (ix1 j) + eps) * x3 (ix1 j) + x4 (ix1 j))))
            * Ideal.sign (x7 (ix2 k j))) + x8 (ix1 k)) - x11 (ix1 k))
            * Ideal.rsqrt (x12 (ix1 k) + eps) * x9 (ix1 k) + x10 (ix1 k)))) := by
  rw [val_main_v45_apply, val_main_v44_apply, val_main_call1_v4_apply, val_main_call1_v3_apply,
    val_main_cst_4_apply, val_main_call1_v2_apply, val_main_call1_v1_apply, val_main_call1_v0_apply,
    val_main_cst_3_apply, val_main_v43_apply, val_main_v40_apply, val_main_v37_apply, val_main_v34_apply,
    val_main_v28_apply, dot2, bcast32,
    show val_main_v33 (F := Ideal) x11 (ix2 r k) = x11 (ix1 k) from bcast32 x11 r k,
    show val_main_v36 (F := Ideal) x12 (ix2 r k) = val_main_v31 (F := Ideal) x12 (ix1 k) from
      bcast32 (val_main_v31 (F := Ideal) x12) r k,
    inv2,
    show val_main_v39 (F := Ideal) x9 (ix2 r k) = x9 (ix1 k) from bcast32 x9 r k,
    show val_main_v42 (F := Ideal) x10 (ix2 r k) = x10 (ix1 k) from bcast32 x10 r k]
  simp only [layer1]
  rfl

/-- The last contraction: the second activations of row `r` against the signs of row `q` of the
    last weights. -/
theorem dot3 (x0 : Arr2 65536 784) (x1 : Arr2 512 784) (x2 x3 x4 x5 x6 : Arr1 512)
    (x7 : Arr2 32 512) (x8 x9 x10 x11 x12 : Arr1 32) (x13 : Arr2 10 32) (r : Fin 65536) (q : Fin 10) :
    val_main_v48 (F := Ideal) x0 x1 x2 x3 x4 x5 x6 x7 x8 x9 x10 x11 x12 x13 (ix2 r q)
      = ∑ k : Fin 32, val_main_v45 (F := Ideal) x0 x1 x2 x3 x4 x5 x6 x7 x8 x9 x10 x11 x12 (ix2 r k)
          * Ideal.sign (x13 (ix2 q k)) := by
  rw [val_main_v48_apply]
  refine Finset.sum_congr rfl fun k _ => ?_
  rw [val_main_v47_apply, val_main_v46_apply]
  have e1 : lidx_main_v48 (ix2 r q) k = ix2 r k :=
    funext fun a => Fin.ext (by match a with | ⟨0, _⟩ => rfl | ⟨1, _⟩ => rfl)
  have e2 : idx_main_v47 (ridx_main_v48 (ix2 r q) k) = ix2 q k :=
    funext fun a => Fin.ext (by match a with | ⟨0, _⟩ => rfl | ⟨1, _⟩ => rfl)
  rw [e1, e2, Ideal.hostUnary_sign_def]

/-- The last bias broadcast along the rows. -/
theorem bcast10 (y : Arr1 10) (r : Fin 65536) (q : Fin 10) :
    val_main_v50 (F := Ideal) y (ix2 r q) = y (ix1 q) := by
  rw [val_main_v50_apply, val_main_v49_apply]
  exact congrArg y (funext fun a => Fin.ext (by match a with | ⟨0, _⟩ => rfl))

/-- The reference program's result is the plain network, entry by entry. -/
theorem ref_eq (x0 : Arr2 65536 784) (x1 : Arr2 512 784) (x2 x3 x4 x5 x6 : Arr1 512)
    (x7 : Arr2 32 512) (x8 x9 x10 x11 x12 : Arr1 32) (x13 : Arr2 10 32) (x14 : Arr1 10) :
    Cert.ReferenceIdeal.Read.val_main_v51 (F := Ideal) x0 x1 x2 x3 x4 x5 x6 x7 x8 x9 x10 x11 x12 x13 x14
      = outR x0 x1 x2 x3 x4 x5 x6 x7 x8 x9 x10 x11 x12 x13 x14 := by
  funext o
  obtain ⟨r, q, rfl⟩ : ∃ (r : Fin 65536) (q : Fin 10), o = ix2 r q := ⟨o 0, o 1, eq_ix2 o⟩
  rw [val_main_v51_apply, dot3, bcast10]
  simp only [layer2]
  rfl

end Cert.Mlp.Ref

end
-- ==== Proof.PreReal.lean ====
/-
  What the finiteness hypothesis says, entry by entry.

  The hypothesis is one truth value: the conjunction of seventeen "for all entries" tests.  Fifteen of them, one
  per argument array, test |x| < +∞ at every entry, where |x| is max x (-x) on the extended reals; the last two
  test x ≥ 0 at every entry of the two variance vectors.  A conjunction is true only if every conjunct is, and a
  "for all" obtained by folding "and" over the entries from the value true is true only if every entry passed.
  On the extended reals max x (-x) < +∞ fails at +∞ and at -∞ (there -x = +∞), so it leaves the real numbers.
-/
import proofs.«123496_j18734647345307_2_alg».proof.Proof.Spec
import proofs.«123496_j18734647345307_2_alg».proof.Pre_finite_inputs
import Idealize.ShloMosaic.Lib.ReduceAll

noncomputable section

namespace Cert.Mlp.Pre

open Cert.Mlp Cert.Pre_finite_inputs Idealize.ShloMosaic Idealize.ShloMosaic.ValueIdx

/-- A shape with no axes has exactly one index (the empty tuple). -/
local instance oneIndex : Subsingleton S_.Idx := ⟨fun _ _ => funext fun d => d.elim0⟩

/-- The single-precision word with every exponent bit set, sign and fraction clear, denotes +∞. -/
theorem inf_word : Ideal.ofBits .f32 0x7F800000#32 = (⊤ : EReal) := by simp [Ideal.ofBits, Ideal.ieee]

/-- An extended real with max x (-x) < +∞ is a real number: at x = +∞ the maximum is +∞, and at x = -∞ its
    negation is +∞. -/
theorem real_of_abs_lt_top (x : EReal) (h : max x (-x) < ⊤) : ∃ r : ℝ, x = (r : EReal) := by
  induction x using EReal.rec with
  | bot => simp at h
  | top => simp at h
  | coe r => exact ⟨r, rfl⟩

/-- The one-bit word of a truth value is 1 exactly when the value is true. -/
theorem bit_eq_one_iff (b : Bool) : BitVec.ofBool b = 1#1 ↔ b = true := by cases b <;> simp

/-- "For all entries, |x| < +∞" holds: then every entry of x is a real number.  The test at entry i is the
    comparison of max (x i) (-(x i)) with the value of the infinity word, which is +∞. -/
theorem allReal_of_all {s : Shape} (x : s.Idx → EReal) (hb : S_.BroadcastsInDim s (![] : Fin 0 → Fin s.rank))
    {axes : List (Fin s.rank)} (hr : s.ReducesTo axes S_) (hu : 0 < S_.numel)
    (e : Host.reduce IntOp.andi (cmpf (F := Ideal) (φ := .f32) .olt (Host.absf x)
        (broadcastInDim s ![] hb (constant S_ .f32 0x7F800000#32))) (constantI S_ 1 1#1) hr hu ix0 = 1#1) :
    AllReal x := by
  intro i
  have h := Host.reduce_andi_all _ _ hr hu ix0 e i
  have h' : BitVec.ofBool (decide (max (x i) (-(x i)) < Ideal.ofBits .f32 0x7F800000#32)) = 1#1 := h
  rw [bit_eq_one_iff, decide_eq_true_eq, inf_word] at h'
  exact real_of_abs_lt_top _ h'

/-- "For all entries, x ≥ 0" holds: then every entry of x is at least zero.  The test at entry i is the
    comparison of x i with the value of the all-clear word, which is 0. -/
theorem nonneg_of_all {s : Shape} (x : s.Idx → EReal) (hb : S_.BroadcastsInDim s (![] : Fin 0 → Fin s.rank))
    {axes : List (Fin s.rank)} (hr : s.ReducesTo axes S_) (hu : 0 < S_.numel)
    (e : Host.reduce IntOp.andi (cmpf (F := Ideal) (φ := .f32) .oge x
        (broadcastInDim s ![] hb (constant S_ .f32 0x00000000#32))) (constantI S_ 1 1#1) hr hu ix0 = 1#1) :
    ∀ i, 0 ≤ x i := by
  intro i
  have h := Host.reduce_andi_all _ _ hr hu ix0 e i
  have h' : BitVec.ofBool (decide (Ideal.ofBits .f32 0x00000000#32 ≤ x i)) = 1#1 := h
  rw [bit_eq_one_iff, decide_eq_true_eq, Ideal.ofBits_zero_f32] at h'
  exact h'

/-- The hypothesis decoded.  Its value at the one index is a left-nested conjunction of seventeen tests, in the
    order: finiteness of the arrays 0 to 14, then non-negativity of array 6 and of array 12 (the two variances).
    Each conjunct being 1, the two lemmas above read each of them back at every entry. -/
theorem of_pre [Cert.Pre_finite_inputs.Facts] (x0 : Arr2 65536 784) (x1 : Arr2 512 784) (x2 x3 x4 x5 x6 : Arr1 512)
    (x7 : Arr2 32 512) (x8 x9 x10 x11 x12 : Arr1 32) (x13 : Arr2 10 32) (x14 : Arr1 10)
    (h : Cert.Pre_finite_inputs.fn (F := Ideal) x0 x1 x2 x3 x4 x5 x6 x7 x8 x9 x10 x11 x12 x13 x14 = (fun _ => 1#1)) :
    AllReal x0 ∧ AllReal x1 ∧ AllReal x2 ∧ AllReal x3 ∧ AllReal x4 ∧ AllReal x5 ∧ AllReal x6 ∧ AllReal x7 ∧ AllReal x8
      ∧ AllReal x9 ∧ AllReal x10 ∧ AllReal x11 ∧ AllReal x12 ∧ AllReal x13 ∧ AllReal x14
      ∧ (∀ i, 0 ≤ x6 i) ∧ (∀ i, 0 ≤ x12 i) := by
  have e := congrFun h ix0
  dsimp only [fn, fn_part1, fn_part2, fn_part3, fn_part4] at e
  simp only [Idealize.ShloMosaic.andi, IntOp.andi_eq_one] at e
  obtain ⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, g6⟩, g12⟩ := e
  exact ⟨allReal_of_all x0 _ _ _ h0, allReal_of_all x1 _ _ _ h1, allReal_of_all x2 _ _ _ h2, allReal_of_all x3 _ _ _ h3,
    allReal_of_all x4 _ _ _ h4, allReal_of_all x5 _ _ _ h5, allReal_of_all x6 _ _ _ h6, allReal_of_all x7 _ _ _ h7,
    allReal_of_all x8 _ _ _ h8, allReal_of_all x9 _ _ _ h9, allReal_of_all x10 _ _ _ h10, allReal_of_all x11 _ _ _ h11,
    allReal_of_all x12 _ _ _ h12, allReal_of_all x13 _ _ _ h13, allReal_of_all x14 _ _ _ h14,
    nonneg_of_all x6 _ _ _ g6, nonneg_of_all x12 _ _ _ g12⟩

end Cert.Mlp.Pre

end
-- ==== Proof.KerRow.lean ====
/-
  The block the kernel body leaves, read at one entry.

  The body takes a block of 2048 input rows (784 features each) through three layers. A layer is a
  product that contracts the SECOND axis of both factors (the weights are stored unit by feature), so
  entry (p, j) of the product is the sum over i of left (p, i) times right (j, i). The first two layers
  then multiply by a one-row array of scales and add a one-row array of shifts, both stretched over the
  2048 rows, and take the sign; the last layer only adds its one-row bias.

  The sign is written as: where |h| > 0, the value one carrying h's sign (minus one below zero, one
  otherwise), and h itself elsewhere. On the extended reals that is the sign of h at every entry: minus
  one below zero (at the bottom element too), one above (at the top element too), zero at zero. Narrowing
  a value to sixteen bits is the identity on the extended reals, and a cast to the same shape changes nothing.

  The lemmas go from the inside out: the three products at an entry, a stretched row at an entry, the sign
  at an entry, the first layer before its sign, the second layer before its sign, the stored value, and
  last the block, which is the stored value because one store covers it and every load reads a whole block.
-/
import proofs.«123496_j18734647345307_2_alg».proof.Proof.Spec
import proofs.«123496_j18734647345307_2_alg».proof.Proof.Gen.KernelIdeal.Frame
import Idealize.ShloMosaic.Lib.Pipeline.Value

noncomputable section

namespace Cert.Mlp.Ker

open Cert.Mlp Cert.KernelIdeal Idealize.ShloMosaic Idealize.ShloMosaic.ValueIdx
open scoped BigOperators

/-! ## The three products, each contracting the second axis of both factors

For such a product the left factor is read at (row of the result, summation position) and the right one at
(column of the result, summation position); the summation index of the dimension record is carried to its one
coordinate by the library's bijection. -/

theorem dot1_l0 (i : S2048x512.Idx) (q : dot_S2048x784_S512x784_S2048x512_1_1_0_0_n_n.contr.Idx) :
    (dot_S2048x784_S512x784_S2048x512_1_1_0_0_n_n.lhsIdx i q 0).val = (i 0).val := by
  unfold DotDims.lhsIdx
  rw [dif_neg (show ¬(0 : Fin S2048x784.rank) ∈ dot_S2048x784_S512x784_S2048x512_1_1_0_0_n_n.lhsBatch by decide),
    dif_pos (show (0 : Fin S2048x784.rank) ∈ dot_S2048x784_S512x784_S2048x512_1_1_0_0_n_n.lhsNonContracting by decide)]
  rfl
theorem dot1_l1 (i : S2048x512.Idx) (q : dot_S2048x784_S512x784_S2048x512_1_1_0_0_n_n.contr.Idx) :
    (dot_S2048x784_S512x784_S2048x512_1_1_0_0_n_n.lhsIdx i q 1).val = (q ⟨0, by decide⟩).val :=
  dot_S2048x784_S512x784_S2048x512_1_1_0_0_n_n.lhsIdx_val_of_single rfl i q
theorem dot1_r0 (i : S2048x512.Idx) (q : dot_S2048x784_S512x784_S2048x512_1_1_0_0_n_n.contr.Idx) :
    (dot_S2048x784_S512x784_S2048x512_1_1_0_0_n_n.rhsIdx i q 0).val = (i 1).val := by
  unfold DotDims.rhsIdx
  rw [dif_neg (show ¬(0 : Fin S512x784.rank) ∈ dot_S2048x784_S512x784_S2048x512_1_1_0_0_n_n.rhsBatch by decide),
    dif_pos (show (0 : Fin S512x784.rank) ∈ dot_S2048x784_S512x784_S2048x512_1_1_0_0_n_n.rhsNonContracting by decide)]
  rfl
theorem dot1_r1 (i : S2048x512.Idx) (q : dot_S2048x784_S512x784_S2048x512_1_1_0_0_n_n.contr.Idx) :
    (dot_S2048x784_S512x784_S2048x512_1_1_0_0_n_n.rhsIdx i q 1).val = (q ⟨0, by decide⟩).val :=
  dot_S2048x784_S512x784_S2048x512_1_1_0_0_n_n.rhsIdx_val_of_single rfl i q

/-- Entry (p, j) of the first product: row p of the left factor against row j of the right one. -/
theorem dot1_apply (a : FVec Ideal S2048x784 .bf16) (w : FVec Ideal S512x784 .bf16) (p : Fin 2048) (j : Fin 512) :
    matmul (F := Ideal) dot_S2048x784_S512x784_S2048x512_1_1_0_0_n_n none a w (constant S2048x512 .f32 0x00000000#32) (ix2 p j)
      = ∑ i : Fin 784, a (ix2 p i) * w (ix2 j i) := by
  refine (Ideal.matmul_constant_zero_apply dot_S2048x784_S512x784_S2048x512_1_1_0_0_n_n none a w (ix2 p j)).trans ?_
  rw [← Equiv.sum_comp (contrEquiv1 dot_S2048x784_S512x784_S2048x512_1_1_0_0_n_n 784 rfl rfl).symm]
  refine Finset.sum_congr rfl fun k _ => ?_
  have hk := contrEquiv1_symm_val dot_S2048x784_S512x784_S2048x512_1_1_0_0_n_n 784 rfl rfl k
  have el : dot_S2048x784_S512x784_S2048x512_1_1_0_0_n_n.lhsIdx (ix2 p j)
      ((contrEquiv1 dot_S2048x784_S512x784_S2048x512_1_1_0_0_n_n 784 rfl rfl).symm k) = ix2 p k :=
    funext fun a => Fin.ext (by
      match a with
      | ⟨0, _⟩ => exact dot1_l0 _ _
      | ⟨1, _⟩ => exact (dot1_l1 _ _).trans hk)
  have er : dot_S2048x784_S512x784_S2048x512_1_1_0_0_n_n.rhsIdx (ix2 p j)
      ((contrEquiv1 dot_S2048x784_S512x784_S2048x512_1_1_0_0_n_n 784 rfl rfl).symm k) = ix2 j k :=
    funext fun a => Fin.ext (by
      match a with
      | ⟨0, _⟩ => exact dot1_r0 _ _
      | ⟨1, _⟩ => exact (dot1_r1 _ _).trans hk)
  rw [el, er]

theorem dot2_l0 (i : S2048x32.Idx) (q : dot_S2048x512_S32x512_S2048x32_1_1_0_0_n_n.contr.Idx) :
    (dot_S2048x512_S32x512_S2048x32_1_1_0_0_n_n.lhsIdx i q 0).val = (i 0).val := by
  unfold DotDims.lhsIdx
  rw [dif_neg (show ¬(0 : Fin S2048x512.rank) ∈ dot_S2048x512_S32x512_S2048x32_1_1_0_0_n_n.lhsBatch by decide),
    dif_pos (show (0 : Fin S2048x512.rank) ∈ dot_S2048x512_S32x512_S2048x32_1_1_0_0_n_n.lhsNonContracting by decide)]
  rfl
theorem dot2_l1 (i : S2048x32.Idx) (q : dot_S2048x512_S32x512_S2048x32_1_1_0_0_n_n.contr.Idx) :
    (dot_S2048x512_S32x512_S2048x32_1_1_0_0_n_n.lhsIdx i q 1).val = (q ⟨0, by decide⟩).val :=
  dot_S2048x512_S32x512_S2048x32_1_1_0_0_n_n.lhsIdx_val_of_single rfl i q
theorem dot2_r0 (i : S2048x32.Idx) (q : dot_S2048x512_S32x512_S2048x32_1_1_0_0_n_n.contr.Idx) :
    (dot_S2048x512_S32x512_S2048x32_1_1_0_0_n_n.rhsIdx i q 0).val = (i 1).val := by
  unfold DotDims.rhsIdx
  rw [dif_neg (show ¬(0 : Fin S32x512.rank) ∈ dot_S2048x512_S32x512_S2048x32_1_1_0_0_n_n.rhsBatch by decide),
    dif_pos (show (0 : Fin S32x512.rank) ∈ dot_S2048x512_S32x512_S2048x32_1_1_0_0_n_n.rhsNonContracting by decide)]
  rfl
theorem dot2_r1 (i : S2048x32.Idx) (q : dot_S2048x512_S32x512_S2048x32_1_1_0_0_n_n.contr.Idx) :
    (dot_S2048x512_S32x512_S2048x32_1_1_0_0_n_n.rhsIdx i q 1).val = (q ⟨0, by decide⟩).val :=
  dot_S2048x512_S32x512_S2048x32_1_1_0_0_n_n.rhsIdx_val_of_single rfl i q

/-- Entry (p, k) of the second product. -/
theorem dot2_apply (a : FVec Ideal S2048x512 .bf16) (w : FVec Ideal S32x512 .bf16) (p : Fin 2048) (j : Fin 32) :
    matmul (F := Ideal) dot_S2048x512_S32x512_S2048x32_1_1_0_0_n_n none a w (constant S2048x32 .f32 0x00000000#32) (ix2 p j)
      = ∑ i : Fin 512, a (ix2 p i) * w (ix2 j i) := by
  refine (Ideal.matmul_constant_zero_apply dot_S2048x512_S32x512_S2048x32_1_1_0_0_n_n none a w (ix2 p j)).trans ?_
  rw [← Equiv.sum_comp (contrEquiv1 dot_S2048x512_S32x512_S2048x32_1_1_0_0_n_n 512 rfl rfl).symm]
  refine Finset.sum_congr rfl fun k _ => ?_
  have hk := contrEquiv1_symm_val dot_S2048x512_S32x512_S2048x32_1_1_0_0_n_n 512 rfl rfl k
  have el : dot_S2048x512_S32x512_S2048x32_1_1_0_0_n_n.lhsIdx (ix2 p j)
      ((contrEquiv1 dot_S2048x512_S32x512_S2048x32_1_1_0_0_n_n 512 rfl rfl).symm k) = ix2 p k :=
    funext fun a => Fin.ext (by
      match a with
      | ⟨0, _⟩ => exact dot2_l0 _ _
      | ⟨1, _⟩ => exact (dot2_l1 _ _).trans hk)
  have er : dot_S2048x512_S32x512_S2048x32_1_1_0_0_n_n.rhsIdx (ix2 p j)
      ((contrEquiv1 dot_S2048x512_S32x512_S2048x32_1_1_0_0_n_n 512 rfl rfl).symm k) = ix2 j k :=
    funext fun a => Fin.ext (by
      match a with
      | ⟨0, _⟩ => exact dot2_r0 _ _
      | ⟨1, _⟩ => exact (dot2_r1 _ _).trans hk)
  rw [el, er]

theorem dot3_l0 (i : S2048x10.Idx) (q : dot_S2048x32_S10x32_S2048x10_1_1_0_0_n_n.contr.Idx) :
    (dot_S2048x32_S10x32_S2048x10_1_1_0_0_n_n.lhsIdx i q 0).val = (i 0).val := by
  unfold DotDims.lhsIdx
  rw [dif_neg (show ¬(0 : Fin S2048x32.rank) ∈ dot_S2048x32_S10x32_S2048x10_1_1_0_0_n_n.lhsBatch by decide),
    dif_pos (show (0 : Fin S2048x32.rank) ∈ dot_S2048x32_S10x32_S2048x10_1_1_0_0_n_n.lhsNonContracting by decide)]
  rfl
theorem dot3_l1 (i : S2048x10.Idx) (q : dot_S2048x32_S10x32_S2048x10_1_1_0_0_n_n.contr.Idx) :
    (dot_S2048x32_S10x32_S2048x10_1_1_0_0_n_n.lhsIdx i q 1).val = (q ⟨0, by decide⟩).val :=
  dot_S2048x32_S10x32_S2048x10_1_1_0_0_n_n.lhsIdx_val_of_single rfl i q
theorem dot3_r0 (i : S2048x10.Idx) (q : dot_S2048x32_S10x32_S2048x10_1_1_0_0_n_n.contr.Idx) :
    (dot_S2048x32_S10x32_S2048x10_1_1_0_0_n_n.rhsIdx i q 0).val = (i 1).val := by
  unfold DotDims.rhsIdx
  rw [dif_neg (show ¬(0 : Fin S10x32.rank) ∈ dot_S2048x32_S10x32_S2048x10_1_1_0_0_n_n.rhsBatch by decide),
    dif_pos (show (0 : Fin S10x32.rank) ∈ dot_S2048x32_S10x32_S2048x10_1_1_0_0_n_n.rhsNonContracting by decide)]
  rfl
theorem dot3_r1 (i : S2048x10.Idx) (q : dot_S2048x32_S10x32_S2048x10_1_1_0_0_n_n.contr.Idx) :
    (dot_S2048x32_S10x32_S2048x10_1_1_0_0_n_n.rhsIdx i q 1).val = (q ⟨0, by decide⟩).val :=
  dot_S2048x32_S10x32_S2048x10_1_1_0_0_n_n.rhsIdx_val_of_single rfl i q

/-- Entry (p, q) of the third product. -/
theorem dot3_apply (a : FVec Ideal S2048x32 .bf16) (w : FVec Ideal S10x32 .bf16) (p : Fin 2048) (j : Fin 10) :
    matmul (F := Ideal) dot_S2048x32_S10x32_S2048x10_1_1_0_0_n_n none a w (constant S2048x10 .f32 0x00000000#32) (ix2 p j)
      = ∑ i : Fin 32, a (ix2 p i) * w (ix2 j i) := by
  refine (Ideal.matmul_constant_zero_apply dot_S2048x32_S10x32_S2048x10_1_1_0_0_n_n none a w (ix2 p j)).trans ?_
  rw [← Equiv.sum_comp (contrEquiv1 dot_S2048x32_S10x32_S2048x10_1_1_0_0_n_n 32 rfl rfl).symm]
  refine Finset.sum_congr rfl fun k _ => ?_
  have hk := contrEquiv1_symm_val dot_S2048x32_S10x32_S2048x10_1_1_0_0_n_n 32 rfl rfl k
  have el : dot_S2048x32_S10x32_S2048x10_1_1_0_0_n_n.lhsIdx (ix2 p j)
      ((contrEquiv1 dot_S2048x32_S10x32_S2048x10_1_1_0_0_n_n 32 rfl rfl).symm k) = ix2 p k :=
    funext fun a => Fin.ext (by
      match a with
      | ⟨0, _⟩ => exact dot3_l0 _ _
      | ⟨1, _⟩ => exact (dot3_l1 _ _).trans hk)
  have er : dot_S2048x32_S10x32_S2048x10_1_1_0_0_n_n.rhsIdx (ix2 p j)
      ((contrEquiv1 dot_S2048x32_S10x32_S2048x10_1_1_0_0_n_n 32 rfl rfl).symm k) = ix2 j k :=
    funext fun a => Fin.ext (by
      match a with
      | ⟨0, _⟩ => exact dot3_r0 _ _
      | ⟨1, _⟩ => exact (dot3_r1 _ _).trans hk)
  rw [el, er]

/-! ## A one-row array stretched over the rows of a block -/

theorem row512_apply (v : FVec Ideal S1x512 .f32) (h : S1x512.ShapeCasts S1x512) (hb : S1x512.Broadcasts S2048x512)
    (p : Fin 2048) (j : Fin 512) :
    broadcastTo S2048x512 (shapeCast S1x512 v h) hb (ix2 p j) = v (ix2 0 j) := by
  rw [shapeCast_self]
  exact broadcastTo_apply v hb (ix2 p j) (ix2 0 j) (fun a => match a with
    | ⟨0, _⟩ => by show (0 : Nat) = if (1 : Nat) = 1 then 0 else _; rw [if_pos rfl]
    | ⟨1, _⟩ => by show j.val = if (512 : Nat) = 1 then 0 else _; rw [if_neg (by decide)]; rfl)

theorem row32_apply (v : FVec Ideal S1x32 .f32) (h : S1x32.ShapeCasts S1x32) (hb : S1x32.Broadcasts S2048x32)
    (p : Fin 2048) (k : Fin 32) :
    broadcastTo S2048x32 (shapeCast S1x32 v h) hb (ix2 p k) = v (ix2 0 k) := by
  rw [shapeCast_self]
  exact broadcastTo_apply v hb (ix2 p k) (ix2 0 k) (fun a => match a with
    | ⟨0, _⟩ => by show (0 : Nat) = if (1 : Nat) = 1 then 0 else _; rw [if_pos rfl]
    | ⟨1, _⟩ => by show k.val = if (32 : Nat) = 1 then 0 else _; rw [if_neg (by decide)]; rfl)

theorem row10_apply (v : FVec Ideal S1x10 .f32) (h : S1x10.ShapeCasts S1x10) (hb : S1x10.Broadcasts S2048x10)
    (p : Fin 2048) (q : Fin 10) :
    broadcastTo S2048x10 (shapeCast S1x10 v h) hb (ix2 p q) = v (ix2 0 q) := by
  rw [shapeCast_self]
  exact broadcastTo_apply v hb (ix2 p q) (ix2 0 q) (fun a => match a with
    | ⟨0, _⟩ => by show (0 : Nat) = if (1 : Nat) = 1 then 0 else _; rw [if_pos rfl]
    | ⟨1, _⟩ => by show q.val = if (10 : Nat) = 1 then 0 else _; rw [if_neg (by decide)]; rfl)

/-- Scale by one stretched row and shift by another, read at an entry. -/
theorem affine512_apply (D : FVec Ideal S2048x512 .f32) (s t : FVec Ideal S1x512 .f32)
    (h1 h2 : S1x512.ShapeCasts S1x512) (hb1 hb2 : S1x512.Broadcasts S2048x512) (p : Fin 2048) (j : Fin 512) :
    addf (mulf D (broadcastTo S2048x512 (shapeCast S1x512 s h1) hb1)) (broadcastTo S2048x512 (shapeCast S1x512 t h2) hb2) (ix2 p j)
      = D (ix2 p j) * s (ix2 0 j) + t (ix2 0 j) := by
  rw [addf_apply, mulf_apply, row512_apply, row512_apply]

theorem affine32_apply (D : FVec Ideal S2048x32 .f32) (s t : FVec Ideal S1x32 .f32)
    (h1 h2 : S1x32.ShapeCasts S1x32) (hb1 hb2 : S1x32.Broadcasts S2048x32) (p : Fin 2048) (k : Fin 32) :
    addf (mulf D (broadcastTo S2048x32 (shapeCast S1x32 s h1) hb1)) (broadcastTo S2048x32 (shapeCast S1x32 t h2) hb2) (ix2 p k)
      = D (ix2 p k) * s (ix2 0 k) + t (ix2 0 k) := by
  rw [addf_apply, mulf_apply, row32_apply, row32_apply]

/-! ## The sign, as the body spells it -/

/-- One with the argument's sign where the argument is not zero, the argument itself where it is:
    at every entry this is the sign of the entry. -/
theorem sign_vec_apply {s : Shape} (h : FVec Ideal s .f32) (i : s.Idx) :
    select (cmpf .ogt (absf h) (broadcast s (Scalar.ofBits (F := Ideal) .f32 0x00000000#32)))
        (select (cmpf .olt h (constant (F := Ideal) s .f32 0x00000000#32)) (constant (F := Ideal) s .f32 0xBF800000#32)
          (constant (F := Ideal) s .f32 0x3F800000#32)) h i
      = Ideal.sign (h i) := Ideal.jnp_sign_eq_sign_f32 (h i)

/-! ## The body at an entry, inside out -/

/-- The first layer before its sign, at (p, j). -/
theorem pre1_apply (v0 : FVec Ideal S2048x784 .f32) (v2 : FVec Ideal S512x784 .bf16) (v5 v9 : FVec Ideal S1x512 .f32)
    (hb : FTy.bits .bf16 < FTy.bits .f32) (hc : S512x784.ShapeCasts S512x784)
    (h1 h2 : S1x512.ShapeCasts S1x512) (hb1 hb2 : S1x512.Broadcasts S2048x512) (p : Fin 2048) (j : Fin 512) :
    addf (mulf (matmul (F := Ideal) dot_S2048x784_S512x784_S2048x512_1_1_0_0_n_n none (truncf .bf16 v0 hb)
          (shapeCast S512x784 v2 hc) (constant S2048x512 .f32 0x00000000#32))
        (broadcastTo S2048x512 (shapeCast S1x512 v5 h1) hb1)) (broadcastTo S2048x512 (shapeCast S1x512 v9 h2) hb2) (ix2 p j)
      = (∑ i : Fin 784, v0 (ix2 p i) * v2 (ix2 j i)) * v5 (ix2 0 j) + v9 (ix2 0 j) := by
  refine (affine512_apply _ v5 v9 h1 h2 hb1 hb2 p j).trans ?_
  rw [shapeCast_self, dot1_apply]
  rfl

/-- The second layer before its sign, at (p, k): the first layer's signs against row k of the second
    weights, scaled and shifted. -/
theorem pay2_apply (v0 : FVec Ideal S2048x784 .f32) (v2 : FVec Ideal S512x784 .bf16) (v5 v9 : FVec Ideal S1x512 .f32)
    (v24 : FVec Ideal S32x512 .bf16) (v27 v31 : FVec Ideal S1x32 .f32) (p : Fin 2048) (k : Fin 32) :
    Gen.k0_pay2 (F := Ideal) v0 v2 v5 v9 v24 v27 v31 (ix2 p k)
      = (∑ j : Fin 512, Ideal.sign ((∑ i : Fin 784, v0 (ix2 p i) * v2 (ix2 j i)) * v5 (ix2 0 j) + v9 (ix2 0 j))
            * v24 (ix2 k j)) * v27 (ix2 0 k) + v31 (ix2 0 k) := by
  unfold Gen.k0_pay2
  refine (affine32_apply _ v27 v31 _ _ _ _ p k).trans ?_
  refine congrArg (fun t => t * v27 (ix2 0 k) + v31 (ix2 0 k)) ?_
  refine (dot2_apply _ _ p k).trans ?_
  refine Finset.sum_congr rfl fun j _ => ?_
  refine congrArg₂ (· * ·) ?_ (congrFun (shapeCast_self v24 _) (ix2 k j))
  refine (truncf_apply (ψ := .bf16) _ Gen.bitsLt_bf16_f32 (ix2 p j)).trans ?_
  refine (sign_vec_apply _ (ix2 p j)).trans ?_
  exact congrArg Ideal.sign (pre1_apply v0 v2 v5 v9 _ _ _ _ _ _ p j)

/-- The stored value at (p, q): the second layer's signs against row q of the last weights, plus the
    last bias. The three other values the store's payload reads are the pieces of the second sign. -/
theorem pay1_apply (x0 : FVec Ideal S2048x784 .f32) (x1 : FVec Ideal S512x784 .bf16) (x2 x3 : FVec Ideal S1x512 .f32)
    (x4 : FVec Ideal S32x512 .bf16) (x5 x6 : FVec Ideal S1x32 .f32) (x7 : FVec Ideal S10x32 .bf16)
    (x8 : FVec Ideal S1x10 .f32) (p : Fin 2048) (q : Fin 10) :
    Gen.k0_pay1 (F := Ideal) (Gen.k0_pay2 x0 x1 x2 x3 x4 x5 x6) (Gen.k0_pay3 x0 x1 x2 x3 x4 x5 x6)
        (Gen.k0_pay4 x0 x1 x2 x3 x4 x5 x6) Gen.k0_pay5 x7 x8 (ix2 p q)
      = rowK (fun i => x0 (ix2 p i)) (fun j i => x1 (ix2 j i)) (fun j => x2 (ix2 0 j)) (fun j => x3 (ix2 0 j))
          (fun k j => x4 (ix2 k j)) (fun k => x5 (ix2 0 k)) (fun k => x6 (ix2 0 k))
          (fun q' k => x7 (ix2 q' k)) (fun q' => x8 (ix2 0 q')) q := by
  unfold Gen.k0_pay1 Gen.k0_pay3 Gen.k0_pay4 Gen.k0_pay5 rowK
  refine (addf_apply _ _ (ix2 p q)).trans ?_
  refine congrArg₂ (· + ·) ?_ (row10_apply x8 _ _ p q)
  refine (dot3_apply _ _ p q).trans ?_
  refine Finset.sum_congr rfl fun k _ => ?_
  refine congrArg₂ (· * ·) ?_ (congrFun (shapeCast_self x7 _) (ix2 q k))
  refine (truncf_apply (ψ := .bf16) _ Gen.bitsLt_bf16_f32 (ix2 p k)).trans ?_
  refine (sign_vec_apply (Gen.k0_pay2 x0 x1 x2 x3 x4 x5 x6) (ix2 p k)).trans ?_
  exact congrArg Ideal.sign (pay2_apply x0 x1 x2 x3 x4 x5 x6 p k)

/-! ## The block the body leaves -/

/-- The whole-block rectangles sit at offset zero. -/
theorem offset_zero : (![0, 0] : Fin 2 → Nat) = fun _ => 0 := funext fun a => by fin_cases a <;> rfl

/-- One store covers the output block and every load reads a whole block, so the block left at (p, q) is
    the stored value there: the folded network on row p of the input block, unit q. -/
theorem out_apply (x0 : Vec Ideal S2048x784 .f32) (x1 : Vec Ideal S512x784 .bf16) (x2 x3 : Vec Ideal S1x512 .f32)
    (x4 : Vec Ideal S32x512 .bf16) (x5 x6 : Vec Ideal S1x32 .f32) (x7 : Vec Ideal S10x32 .bf16)
    (x8 : Vec Ideal S1x10 .f32) (p : Fin 2048) (q : Fin 10) :
    Cert.KernelIdeal.Gen.out0_9 (F := Ideal) x0 x1 x2 x3 x4 x5 x6 x7 x8 (ix2 p q)
      = rowK (fun i => x0 (ix2 p i)) (fun j i => x1 (ix2 j i)) (fun j => x2 (ix2 0 j)) (fun j => x3 (ix2 0 j))
          (fun k j => x4 (ix2 k j)) (fun k => x5 (ix2 0 k)) (fun k => x6 (ix2 0 k))
          (fun q' k => x7 (ix2 q' k)) (fun q' => x8 (ix2 0 q')) q := by
  unfold Gen.out0_9
  rw [View.canon_unit_zero offset_zero]
  simp only [View.ld_unit_zero (S := S2048x784) offset_zero, View.ld_unit_zero (S := S512x784) offset_zero,
    View.ld_unit_zero (S := S1x512) offset_zero, View.ld_unit_zero (S := S32x512) offset_zero,
    View.ld_unit_zero (S := S1x32) offset_zero, View.ld_unit_zero (S := S10x32) offset_zero,
    View.ld_unit_zero (S := S1x10) offset_zero]
  exact pay1_apply x0 x1 x2 x3 x4 x5 x6 x7 x8 p q

end Cert.Mlp.Ker

end
-- ==== Proof.KerArr.lean ====
/-
  From blocks to the whole array, on the folded network's side.

  The program runs its body once for each of 32 consecutive bands of 2048 input rows.  At band t the body sees
  rows 2048 t … 2048 t + 2047 of the input, together with the WHOLE of eight parameter arrays that were prepared
  before the bands start: the signs of the three weight matrices, and for the two normalised layers the scale
  g * rsqrt (v + ε) and the shift β + (b - μ) * (g * rsqrt (v + ε)), each laid out as a one-row array, and the last
  bias as a one-row array.  It writes rows 2048 t … 2048 t + 2047 of the output.

  Given what the body stores at one place of its output block (the hypothesis PayloadAt: the folded network
  rowK on the corresponding row of the input block), this file shows that after all bands the output array is
  outK of the fifteen argument arrays: each prepared array is read back in terms of the arguments, each block is
  read where its band says, every band's write-back is the matching block of outK, and the bands cover every row
  (row r lies in band r / 2048).
-/
import proofs.«123496_j18734647345307_2_alg».proof.Proof.Spec
import proofs.«123496_j18734647345307_2_alg».proof.Proof.Gen.KernelIdeal.Value
import Idealize.ShloMosaic.Lib.ValueLayout

noncomputable section

namespace Cert.Mlp.KerArr

open Cert.Mlp Cert.KernelIdeal Cert.KernelIdeal.Gen Idealize.ShloMosaic Idealize.ShloMosaic.ValueIdx Idealize.ShloMosaic.TcCoe Idealize.SL.Sem

/-- What the body stores at place (p, q) of its output block, in terms of its nine input blocks: the folded
    network on row p of the input block, over the blocks of prepared weights, scales and shifts, at unit q. -/
def PayloadAt : Prop := ∀ (x0 : Vec Ideal S2048x784 .f32) (x1 : Vec Ideal S512x784 .bf16) (x2 x3 : Vec Ideal S1x512 .f32)
    (x4 : Vec Ideal S32x512 .bf16) (x5 x6 : Vec Ideal S1x32 .f32) (x7 : Vec Ideal S10x32 .bf16) (x8 : Vec Ideal S1x10 .f32)
    (p : Fin 2048) (q : Fin 10),
    Cert.KernelIdeal.Gen.out0_9 (F := Ideal) x0 x1 x2 x3 x4 x5 x6 x7 x8 (ix2 p q)
      = rowK (fun i => x0 (ix2 p i)) (fun j i => x1 (ix2 j i)) (fun j => x2 (ix2 0 j)) (fun j => x3 (ix2 0 j))
          (fun k j => x4 (ix2 k j)) (fun k => x5 (ix2 0 k)) (fun k => x6 (ix2 0 k))
          (fun q' k => x7 (ix2 q' k)) (fun q' => x8 (ix2 0 q')) q

variable (m : (ℓ : Loc nD τ sig) → Buf (Elt Ideal) ℓ) (ρ : Dev nD → PrngReg)

/-! ## The fifteen argument arrays, typed -/

/-- Argument 0 as launched on core c: the input rows. -/
abbrev aX (c : Dev nD) : Arr2 65536 784 := m ((c : Thread nD τ).loc main_arg0)
/-- Argument 1 as launched on core c: the first layer's raw weights. -/
abbrev aW1 (c : Dev nD) : Arr2 512 784 := m ((c : Thread nD τ).loc main_arg1)
/-- Argument 2 as launched on core c: the first layer's bias. -/
abbrev aB1 (c : Dev nD) : Arr1 512 := m ((c : Thread nD τ).loc main_arg2)
/-- Argument 3 as launched on core c: the first normalisation's gain. -/
abbrev aG1 (c : Dev nD) : Arr1 512 := m ((c : Thread nD τ).loc main_arg3)
/-- Argument 4 as launched on core c: the first normalisation's offset. -/
abbrev aBe1 (c : Dev nD) : Arr1 512 := m ((c : Thread nD τ).loc main_arg4)
/-- Argument 5 as launched on core c: the first normalisation's mean. -/
abbrev aMu1 (c : Dev nD) : Arr1 512 := m ((c : Thread nD τ).loc main_arg5)
/-- Argument 6 as launched on core c: the first normalisation's variance. -/
abbrev aV1 (c : Dev nD) : Arr1 512 := m ((c : Thread nD τ).loc main_arg6)
/-- Argument 7 as launched on core c: the second layer's raw weights. -/
abbrev aW2 (c : Dev nD) : Arr2 32 512 := m ((c : Thread nD τ).loc main_arg7)
/-- Argument 8 as launched on core c: the second layer's bias. -/
abbrev aB2 (c : Dev nD) : Arr1 32 := m ((c : Thread nD τ).loc main_arg8)
/-- Argument 9 as launched on core c: the second normalisation's gain. -/
abbrev aG2 (c : Dev nD) : Arr1 32 := m ((c : Thread nD τ).loc main_arg9)
/-- Argument 10 as launched on core c: the second normalisation's offset. -/
abbrev aBe2 (c : Dev nD) : Arr1 32 := m ((c : Thread nD τ).loc main_arg10)
/-- Argument 11 as launched on core c: the second normalisation's mean. -/
abbrev aMu2 (c : Dev nD) : Arr1 32 := m ((c : Thread nD τ).loc main_arg11)
/-- Argument 12 as launched on core c: the second normalisation's variance. -/
abbrev aV2 (c : Dev nD) : Arr1 32 := m ((c : Thread nD τ).loc main_arg12)
/-- Argument 13 as launched on core c: the last layer's raw weights. -/
abbrev aW3 (c : Dev nD) : Arr2 10 32 := m ((c : Thread nD τ).loc main_arg13)
/-- Argument 14 as launched on core c: the last layer's bias. -/
abbrev aB3 (c : Dev nD) : Arr1 10 := m ((c : Thread nD τ).loc main_arg14)

/-! ## The eight prepared arrays in terms of the arguments -/

/-- The first layer's prepared weights: the signs of the raw weights (the narrowing to the matrix unit's format
    is the identity on extended reals). -/
theorem w1_at (c : Dev nD) (j : Fin 512) (i : Fin 784) :
    (V m c main_v20 : S512x784.Idx → EReal) (ix2 j i) = Ideal.sign (aW1 m c (ix2 j i)) := by
  have e : (V m c main_v20 : S512x784.Idx → EReal)
      = (truncf .bf16 (Host.sign (F := Ideal) (aW1 m c : FVec Ideal S512x784 .f32)) bitsLt_bf16_f32 : FVec Ideal S512x784 .bf16) := by
    dsimp only [Gen.V, Gen.hostOps0]; after_results_simp; all_goals rfl
  rw [e]; rfl

/-- The first layer's scale g * rsqrt (v + ε), stored as a one-row array. -/
theorem sc1_at (c : Dev nD) (j : Fin 512) :
    (V m c main_v14 : S1x512.Idx → EReal) (ix2 (0 : Fin 1) j)
      = aG1 m c (ix1 j) * Ideal.rsqrt (aV1 m c (ix1 j) + eps) := by
  have e : (V m c main_v14 : S1x512.Idx → EReal)
      = shapeCast S1x512 (mulf (aG1 m c : FVec Ideal S512 .f32) (Host.rsqrt (addf (aV1 m c : FVec Ideal S512 .f32)
          (broadcastInDim S512 ![] bcast_S_S512 (constant (F := Ideal) S_ .f32 0x3727C5AC#32))))) shapeCasts_S512_S1x512 := by
    dsimp only [Gen.V, Gen.hostOps0]; after_results_simp; all_goals rfl
  rw [e, shapeCast_a_1a_apply]; rfl

/-- The first layer's shift β + (b - μ) * (g * rsqrt (v + ε)), stored as a one-row array. -/
theorem sh1_at (c : Dev nD) (j : Fin 512) :
    (V m c main_v15 : S1x512.Idx → EReal) (ix2 (0 : Fin 1) j)
      = aBe1 m c (ix1 j) + (aB1 m c (ix1 j) - aMu1 m c (ix1 j)) * (aG1 m c (ix1 j) * Ideal.rsqrt (aV1 m c (ix1 j) + eps)) := by
  have e : (V m c main_v15 : S1x512.Idx → EReal)
      = shapeCast S1x512 (addf (aBe1 m c : FVec Ideal S512 .f32) (mulf (subf (aB1 m c : FVec Ideal S512 .f32) (aMu1 m c : FVec Ideal S512 .f32))
          (mulf (aG1 m c : FVec Ideal S512 .f32) (Host.rsqrt (addf (aV1 m c : FVec Ideal S512 .f32)
            (broadcastInDim S512 ![] bcast_S_S512 (constant (F := Ideal) S_ .f32 0x3727C5AC#32))))))) shapeCasts_S512_S1x512 := by
    dsimp only [Gen.V, Gen.hostOps0]; after_results_simp; all_goals rfl
  rw [e, shapeCast_a_1a_apply]; rfl

/-- The second layer's prepared weights: the signs of the raw weights. -/
theorem w2_at (c : Dev nD) (k : Fin 32) (j : Fin 512) :
    (V m c main_v22 : S32x512.Idx → EReal) (ix2 k j) = Ideal.sign (aW2 m c (ix2 k j)) := by
  have e : (V m c main_v22 : S32x512.Idx → EReal)
      = (truncf .bf16 (Host.sign (F := Ideal) (aW2 m c : FVec Ideal S32x512 .f32)) bitsLt_bf16_f32 : FVec Ideal S32x512 .bf16) := by
    dsimp only [Gen.V, Gen.hostOps0]; after_results_simp; all_goals rfl
  rw [e]; rfl

/-- The second layer's scale, stored as a one-row array. -/
theorem sc2_at (c : Dev nD) (k : Fin 32) :
    (V m c main_v16 : S1x32.Idx → EReal) (ix2 (0 : Fin 1) k)
      = aG2 m c (ix1 k) * Ideal.rsqrt (aV2 m c (ix1 k) + eps) := by
  have e : (V m c main_v16 : S1x32.Idx → EReal)
      = shapeCast S1x32 (mulf (aG2 m c : FVec Ideal S32 .f32) (Host.rsqrt (addf (aV2 m c : FVec Ideal S32 .f32)
          (broadcastInDim S32 ![] bcast_S_S32 (constant (F := Ideal) S_ .f32 0x3727C5AC#32))))) shapeCasts_S32_S1x32 := by
    dsimp only [Gen.V, Gen.hostOps0]; after_results_simp; all_goals rfl
  rw [e, shapeCast_a_1a_apply]; rfl

/-- The second layer's shift, stored as a one-row array. -/
theorem sh2_at (c : Dev nD) (k : Fin 32) :
    (V m c main_v17 : S1x32.Idx → EReal) (ix2 (0 : Fin 1) k)
      = aBe2 m c (ix1 k) + (aB2 m c (ix1 k) - aMu2 m c (ix1 k)) * (aG2 m c (ix1 k) * Ideal.rsqrt (aV2 m c (ix1 k) + eps)) := by
  have e : (V m c main_v17 : S1x32.Idx → EReal)
      = shapeCast S1x32 (addf (aBe2 m c : FVec Ideal S32 .f32) (mulf (subf (aB2 m c : FVec Ideal S32 .f32) (aMu2 m c : FVec Ideal S32 .f32))
          (mulf (aG2 m c : FVec Ideal S32 .f32) (Host.rsqrt (addf (aV2 m c : FVec Ideal S32 .f32)
            (broadcastInDim S32 ![] bcast_S_S32 (constant (F := Ideal) S_ .f32 0x3727C5AC#32))))))) shapeCasts_S32_S1x32 := by
    dsimp only [Gen.V, Gen.hostOps0]; after_results_simp; all_goals rfl
  rw [e, shapeCast_a_1a_apply]; rfl

/-- The last layer's prepared weights: the signs of the raw weights. -/
theorem w3_at (c : Dev nD) (q : Fin 10) (k : Fin 32) :
    (V m c main_v24 : S10x32.Idx → EReal) (ix2 q k) = Ideal.sign (aW3 m c (ix2 q k)) := by
  have e : (V m c main_v24 : S10x32.Idx → EReal)
      = (truncf .bf16 (Host.sign (F := Ideal) (aW3 m c : FVec Ideal S10x32 .f32)) bitsLt_bf16_f32 : FVec Ideal S10x32 .bf16) := by
    dsimp only [Gen.V, Gen.hostOps0]; after_results_simp; all_goals rfl
  rw [e]; rfl

/-- The last layer's bias, stored as a one-row array. -/
theorem c3_at (c : Dev nD) (q : Fin 10) :
    (V m c main_v18 : S1x10.Idx → EReal) (ix2 (0 : Fin 1) q) = aB3 m c (ix1 q) := by
  have e : (V m c main_v18 : S1x10.Idx → EReal) = shapeCast S1x10 (aB3 m c : FVec Ideal S10 .f32) shapeCasts_S10_S1x10 := by
    dsimp only [Gen.V, Gen.hostOps0]; after_results_simp; all_goals rfl
  rw [e, shapeCast_a_1a_apply]

/-! ## Where each block sits -/

/-- The block positions over the 32 bands: the input rows' block and the output's block sit at position t along
    the rows and position 0 along the features; every prepared parameter's block sits at position 0 on both axes. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row p of the input block at band t is row 2048 t + p of the input array. -/
theorem x_block_at (c : Dev nD) (t : Fin cfg0.N) (p : Fin 2048) (i : Fin 784) (r : Fin 65536)
    (hr : r.val = t.val * 2048 + p.val) :
    (iblk m c 0 t : Vec Ideal S2048x784 .f32) (ix2 p i) = aX m c (ix2 r i) := by
  obtain ⟨e0, e1, -⟩ := idx_facts t
  unfold iblk
  rw [View.read_apply]
  show V m c main_arg0 (((cfg0.win 0).blk t).view.emb (ix2 p i)) = _
  rw [V_main_arg0]
  refine congrArg (aX m c) ?_
  funext a; apply Fin.ext
  match a with
  | ⟨0, _⟩ => show win0_0.index t (0 : Fin 2) * 2048 + 1 * p.val = r.val; omega
  | ⟨1, _⟩ => show win0_0.index t (1 : Fin 2) * 784 + 1 * i.val = i.val; omega

/-- The first weight block is the whole prepared array, whatever the band. -/
theorem w1_block_at (c : Dev nD) (t : Fin cfg0.N) (j : Fin 512) (i : Fin 784) :
    (iblk m c 1 t : Vec Ideal S512x784 .bf16) (ix2 j i) = Ideal.sign (aW1 m c (ix2 j i)) := by
  obtain ⟨-, -, e0, e1, -⟩ := idx_facts t
  unfold iblk
  rw [View.read_apply, ← w1_at m c j i]
  show V m c main_v20 (((cfg0.win 1).blk t).view.emb (ix2 j i)) = _
  refine congrArg (V m c main_v20 : S512x784.Idx → EReal) ?_
  funext a; apply Fin.ext
  match a with
  | ⟨0, _⟩ => show win0_1.index t (0 : Fin 2) * 512 + 1 * j.val = j.val; omega
  | ⟨1, _⟩ => show win0_1.index t (1 : Fin 2) * 784 + 1 * i.val = i.val; omega

/-- The first scale block is the whole one-row array, whatever the band. -/
theorem sc1_block_at (c : Dev nD) (t : Fin cfg0.N) (j : Fin 512) :
    (iblk m c 2 t : Vec Ideal S1x512 .f32) (ix2 (0 : Fin 1) j) = aG1 m c (ix1 j) * Ideal.rsqrt (aV1 m c (ix1 j) + eps) := by
  obtain ⟨-, -, -, -, e0, e1, -⟩ := idx_facts t
  unfold iblk
  rw [View.read_apply, ← sc1_at m c j]
  show V m c main_v14 (((cfg0.win 2).blk t).view.emb (ix2 (0 : Fin 1) j)) = _
  refine congrArg (V m c main_v14 : S1x512.Idx → EReal) ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 512 + 1 * j.val = j.val; omega

/-- The first shift block is the whole one-row array, whatever the band. -/
theorem sh1_block_at (c : Dev nD) (t : Fin cfg0.N) (j : Fin 512) :
    (iblk m c 3 t : Vec Ideal S1x512 .f32) (ix2 (0 : Fin 1) j) = aBe1 m c (ix1 j) + (aB1 m c (ix1 j) - aMu1 m c (ix1 j)) * (aG1 m c (ix1 j) * Ideal.rsqrt (aV1 m c (ix1 j) + eps)) := by
  obtain ⟨-, -, -, -, -, -, e0, e1, -⟩ := idx_facts t
  unfold iblk
  rw [View.read_apply, ← sh1_at m c j]
  show V m c main_v15 (((cfg0.win 3).blk t).view.emb (ix2 (0 : Fin 1) j)) = _
  refine congrArg (V m c main_v15 : S1x512.Idx → EReal) ?_
  funext a; apply Fin.ext
  match a with
  | ⟨0, _⟩ => show win0_3.index t (0 : Fin 2) * 1 + 1 * (0 : Fin 1).val = (0 : Fin 1).val; omega
  | ⟨1, _⟩ => show win0_3.index t (1 : Fin 2) * 512 + 1 * j.val = j.val; omega

/-- The second weight block is the whole prepared array, whatever the band. -/
theorem w2_block_at (c : Dev nD) (t : Fin cfg0.N) (k : Fin 32) (j : Fin 512) :
    (iblk m c 4 t : Vec Ideal S32x512 .bf16) (ix2 k j) = Ideal.sign (aW2 m c (ix2 k j)) := by
  obtain ⟨-, -, -, -, -, -, -, -, e0, e1, -⟩ := idx_facts t
  unfold iblk
  rw [View.read_apply, ← w2_at m c k j]
  show V m c main_v22 (((cfg0.win 4).blk t).view.emb (ix2 k j)) = _
  refine congrArg (V m c main_v22 : S32x512.Idx → EReal) ?_
  funext a; apply Fin.ext
  match a with
  | ⟨0, _⟩ => show win0_4.index t (0 : Fin 2) * 32 + 1 * k.val = k.val; omega
  | ⟨1, _⟩ => show win0_4.index t (1 : Fin 2) * 512 + 1 * j.val = j.val; omega

/-- The second scale block is the whole one-row array, whatever the band. -/
theorem sc2_block_at (c : Dev nD) (t : Fin cfg0.N) (k : Fin 32) :
    (iblk m c 5 t : Vec Ideal S1x32 .f32) (ix2 (0 : Fin 1) k) = aG2 m c (ix1 k) * Ideal.rsqrt (aV2 m c (ix1 k) + eps) := by
  obtain ⟨-, -, -, -, -, -, -, -, -, -, e0, e1, -⟩ := idx_facts t
  unfold iblk
  rw [View.read_apply, ← sc2_at m c k]
  show V m c main_v16 (((cfg0.win 5).blk t).view.emb (ix2 (0 : Fin 1) k)) = _
  refine congrArg (V m c main_v16 : S1x32.Idx → EReal) ?_
  funext a; apply Fin.ext
  match a with
  | ⟨0, _⟩ => show win0_5.index t (0 : Fin 2) * 1 + 1 * (0 : Fin 1).val = (0 : Fin 1).val; omega
  | ⟨1, _⟩ => show win0_5.index t (1 : Fin 2) * 32 + 1 * k.val = k.val; omega

/-- The second shift block is the whole one-row array, whatever the band. -/
theorem sh2_block_at (c : Dev nD) (t : Fin cfg0.N) (k : Fin 32) :
    (iblk m c 6 t : Vec Ideal S1x32 .f32) (ix2 (0 : Fin 1) k) = aBe2 m c (ix1 k) + (aB2 m c (ix1 k) - aMu2 m c (ix1 k)) * (aG2 m c (ix1 k) * Ideal.rsqrt (aV2 m c (ix1 k) + eps)) := by
  obtain ⟨-, -, -, -, -, -, -, -, -, -, -, -, e0, e1, -⟩ := idx_facts t
  unfold iblk
  rw [View.read_apply, ← sh2_at m c k]
  show V m c main_v17 (((cfg0.win 6).blk t).view.emb (ix2 (0 : Fin 1) k)) = _
  refine congrArg (V m c main_v17 : S1x32.Idx → EReal) ?_
  funext a; apply Fin.ext
  match a with
  | ⟨0, _⟩ => show win0_6.index t (0 : Fin 2) * 1 + 1 * (0 : Fin 1).val = (0 : Fin 1).val; omega
  | ⟨1, _⟩ => show win0_6.index t (1 : Fin 2) * 32 + 1 * k.val = k.val; omega

/-- The last weight block is the whole prepared array, whatever the band. -/
theorem w3_block_at (c : Dev nD) (t : Fin cfg0.N) (q : Fin 10) (k : Fin 32) :
    (iblk m c 7 t : Vec Ideal S10x32 .bf16) (ix2 q k) = Ideal.sign (aW3 m c (ix2 q k)) := by
  obtain ⟨-, -, -, -, -, -, -, -, -, -, -, -, -, -, e0, e1, -⟩ := idx_facts t
  unfold iblk
  rw [View.read_apply, ← w3_at m c q k]
  show V m c main_v24 (((cfg0.win 7).blk t).view.emb (ix2 q k)) = _
  refine congrArg (V m c main_v24 : S10x32.Idx → EReal) ?_
  funext a; apply Fin.ext
  match a with
  | ⟨0, _⟩ => show win0_7.index t (0 : Fin 2) * 10 + 1 * q.val = q.val; omega
  | ⟨1, _⟩ => show win0_7.index t (1 : Fin 2) * 32 + 1 * k.val = k.val; omega

/-- The last bias block is the whole one-row array, whatever the band. -/
theorem c3_block_at (c : Dev nD) (t : Fin cfg0.N) (q : Fin 10) :
    (iblk m c 8 t : Vec Ideal S1x10 .f32) (ix2 (0 : Fin 1) q) = aB3 m c (ix1 q) := by
  obtain ⟨-, -, -, -, -, -, -, -, -, -, -, -, -, -, -, -, e0, e1, -⟩ := idx_facts t
  unfold iblk
  rw [View.read_apply, ← c3_at m c q]
  show V m c main_v18 (((cfg0.win 8).blk t).view.emb (ix2 (0 : Fin 1) q)) = _
  refine congrArg (V m c main_v18 : S1x10.Idx → EReal) ?_
  funext a; apply Fin.ext
  match a with
  | ⟨0, _⟩ => show win0_8.index t (0 : Fin 2) * 1 + 1 * (0 : Fin 1).val = (0 : Fin 1).val; omega
  | ⟨1, _⟩ => show win0_8.index t (1 : Fin 2) * 10 + 1 * q.val = q.val; omega

/-! ## One band's write-back, the cover, and the whole array -/

/-- The folded network depends on its nine parameter functions only through their values. -/
theorem rowK_congr {a a' : Fin 784 → EReal} {W1 W1' : Fin 512 → Fin 784 → EReal} {sc1 sc1' sh1 sh1' : Fin 512 → EReal}
    {W2 W2' : Fin 32 → Fin 512 → EReal} {sc2 sc2' sh2 sh2' : Fin 32 → EReal}
    {W3 W3' : Fin 10 → Fin 32 → EReal} {c3 c3' : Fin 10 → EReal}
    (ha : ∀ i, a i = a' i) (hW1 : ∀ j i, W1 j i = W1' j i) (hsc1 : ∀ j, sc1 j = sc1' j) (hsh1 : ∀ j, sh1 j = sh1' j)
    (hW2 : ∀ k j, W2 k j = W2' k j) (hsc2 : ∀ k, sc2 k = sc2' k) (hsh2 : ∀ k, sh2 k = sh2' k)
    (hW3 : ∀ q k, W3 q k = W3' q k) (hc3 : ∀ q, c3 q = c3' q) (q : Fin 10) :
    rowK a W1 sc1 sh1 W2 sc2 sh2 W3 c3 q = rowK a' W1' sc1' sh1' W2' sc2' sh2' W3' c3' q := by
  obtain rfl : a = a' := funext ha
  obtain rfl : W1 = W1' := funext fun j => funext (hW1 j)
  obtain rfl : sc1 = sc1' := funext hsc1
  obtain rfl : sh1 = sh1' := funext hsh1
  obtain rfl : W2 = W2' := funext fun k => funext (hW2 k)
  obtain rfl : sc2 = sc2' := funext hsc2
  obtain rfl : sh2 = sh2' := funext hsh2
  obtain rfl : W3 = W3' := funext fun q => funext (hW3 q)
  obtain rfl : c3 = c3' := funext hc3
  rfl

/-- Place (p, q) of what band t stores is the folded network of the argument arrays at row 2048 t + p, unit q. -/
theorem out_at (hpay : PayloadAt) (c : Dev nD) (t : Fin cfg0.N) (p : Fin 2048) (q : Fin 10) (r : Fin 65536)
    (hr : r.val = t.val * 2048 + p.val) :
    out0_9 (F := Ideal) (iblk m c 0 t) (iblk m c 1 t) (iblk m c 2 t) (iblk m c 3 t) (iblk m c 4 t) (iblk m c 5 t) (iblk m c 6 t) (iblk m c 7 t) (iblk m c 8 t) (ix2 p q)
      = outK (aX m c) (aW1 m c) (aB1 m c) (aG1 m c) (aBe1 m c) (aMu1 m c) (aV1 m c) (aW2 m c) (aB2 m c) (aG2 m c) (aBe2 m c) (aMu2 m c) (aV2 m c) (aW3 m c) (aB3 m c) (ix2 r q) := by
  refine (hpay (iblk m c 0 t) (iblk m c 1 t) (iblk m c 2 t) (iblk m c 3 t) (iblk m c 4 t) (iblk m c 5 t) (iblk m c 6 t) (iblk m c 7 t) (iblk m c 8 t) p q).trans ?_
  show _ = rowK (fun i => aX m c (ix2 r i))
    (fun j i => Ideal.sign (aW1 m c (ix2 j i)))
    (fun j => aG1 m c (ix1 j) * Ideal.rsqrt (aV1 m c (ix1 j) + eps))
    (fun j => aBe1 m c (ix1 j) + (aB1 m c (ix1 j) - aMu1 m c (ix1 j)) * (aG1 m c (ix1 j) * Ideal.rsqrt (aV1 m c (ix1 j) + eps)))
    (fun k j => Ideal.sign (aW2 m c (ix2 k j)))
    (fun k => aG2 m c (ix1 k) * Ideal.rsqrt (aV2 m c (ix1 k) + eps))
    (fun k => aBe2 m c (ix1 k) + (aB2 m c (ix1 k) - aMu2 m c (ix1 k)) * (aG2 m c (ix1 k) * Ideal.rsqrt (aV2 m c (ix1 k) + eps)))
    (fun q' k => Ideal.sign (aW3 m c (ix2 q' k)))
    (fun q' => aB3 m c (ix1 q')) q
  exact rowK_congr (fun i => x_block_at m c t p i r hr) (fun j i => w1_block_at m c t j i)
    (fun j => sc1_block_at m c t j) (fun j => sh1_block_at m c t j) (fun k j => w2_block_at m c t k j)
    (fun k => sc2_block_at m c t k) (fun k => sh2_block_at m c t k) (fun q' k => w3_block_at m c t q' k)
    (fun q' => c3_block_at m c t q') q

/-- Band t writes back rows 2048 t … 2048 t + 2047 of the folded network of the argument arrays. -/
theorem flushed_eq (hpay : PayloadAt) (c : Dev nD) (t : Fin cfg0.N) :
    (dats m 0 c).flushed 9 t = ((cfg0.win 9).blk t).view.read (Elt Ideal) (outK (aX m c) (aW1 m c) (aB1 m c) (aG1 m c) (aBe1 m c) (aMu1 m c) (aV1 m c) (aW2 m c) (aB2 m c) (aG2 m c) (aBe2 m c) (aMu2 m c) (aV2 m c) (aW3 m c) (aB3 m c)) := by
  rw [Value.flushed9]
  obtain ⟨-, -, -, -, -, -, -, -, -, -, -, -, -, -, -, -, -, -, e0, e1⟩ := idx_facts t
  funext y
  obtain ⟨p, q, rfl⟩ : ∃ (p : Fin 2048) (q : Fin 10), y = ix2 p q := ⟨y 0, y 1, eq_ix2 y⟩
  have hr : t.val * 2048 + p.val < 65536 := by
    have hp : p.val < 2048 := p.isLt
    have ht : t.val < 32 := Nat.lt_of_lt_of_eq t.isLt (show cfg0.N = 32 from N_0)
    omega
  refine (out_at m hpay c t p q ⟨t.val * 2048 + p.val, hr⟩ rfl).trans ?_
  show outK (aX m c) (aW1 m c) (aB1 m c) (aG1 m c) (aBe1 m c) (aMu1 m c) (aV1 m c) (aW2 m c) (aB2 m c) (aG2 m c) (aBe2 m c) (aMu2 m c) (aV2 m c) (aW3 m c) (aB3 m c) _ = outK (aX m c) (aW1 m c) (aB1 m c) (aG1 m c) (aBe1 m c) (aMu1 m c) (aV1 m c) (aW2 m c) (aB2 m c) (aG2 m c) (aBe2 m c) (aMu2 m c) (aV2 m c) (aW3 m c) (aB3 m c) (((cfg0.win 9).blk t).view.emb (ix2 p q))
  refine congrArg (outK (aX m c) (aW1 m c) (aB1 m c) (aG1 m c) (aBe1 m c) (aMu1 m c) (aV1 m c) (aW2 m c) (aB2 m c) (aG2 m c) (aBe2 m c) (aMu2 m c) (aV2 m c) (aW3 m c) (aB3 m c)) ?_
  funext a; apply Fin.ext
  match a with
  | ⟨0, _⟩ => show t.val * 2048 + p.val = win0_9.index t (0 : Fin 2) * 2048 + 1 * p.val; omega
  | ⟨1, _⟩ => show q.val = win0_9.index t (1 : Fin 2) * 10 + 1 * q.val; omega

/-- An index of the output array lies in band t's block iff each coordinate lies in the block's range on its axis. -/
theorem mem_blk (t : Fin cfg0.N) (i : S65536x10.Idx) :
    i ∈ ((cfg0.win 9).blk t).view.set ↔ ∀ a : Fin 2, win0_9.index t a * S2048x10.size a ≤ (i a).val ∧ (i a).val < win0_9.index t a * S2048x10.size a + S2048x10.size a := by
  show i ∈ ((View.whole main_v25).slice (win0_9.rect t)).set ↔ _
  rw [View.set_slice_whole, Rect.mem_set_unit]
  exact Iff.rfl

/-- Every output index lies in the block of the band its row falls under: row r belongs to band r / 2048. -/
theorem cover (i : S65536x10.Idx) :
    ∃ t : Fin cfg0.N, (cfg0.win 9).flush t = true ∧ i ∈ ((cfg0.win 9).blk t).view.set := by
  have hi0 : (i 0).val < 65536 := (i 0).isLt
  have hi1 : (i 1).val < 10 := (i 1).isLt
  obtain ⟨t, ht⟩ : ∃ t : Fin cfg0.N, t.val = (i 0).val / 2048 :=
    ⟨⟨(i 0).val / 2048, by rw [show cfg0.N = 32 from N_0]; omega⟩, rfl⟩
  obtain ⟨-, -, -, -, -, -, -, -, -, -, -, -, -, -, -, -, -, -, e0, e1⟩ := idx_facts t
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 10 ≤ (i 1).val ∧ (i 1).val < win0_9.index t (1 : Fin 2) * 10 + 10; omega

/-- After the last band the output array is the folded network of the argument arrays. -/
theorem final (hpay : PayloadAt) (c : Dev nD) :
    (dats m 0 c).arrAt 9 cfg0.N = outK (aX m c) (aW1 m c) (aB1 m c) (aG1 m c) (aBe1 m c) (aMu1 m c) (aV1 m c) (aW2 m c) (aB2 m c) (aG2 m c) (aBe2 m c) (aMu2 m c) (aV2 m c) (aW3 m c) (aB3 m c) :=
  (dats m 0 c).arrAt_eq_of_cover 9 (outK (aX m c) (aW1 m c) (aB1 m c) (aG1 m c) (aBe1 m c) (aMu1 m c) (aV1 m c) (aW2 m c) (aB2 m c) (aG2 m c) (aBe2 m c) (aMu2 m c) (aV2 m c) (aW3 m c) (aB3 m c)) (fun t _ => flushed_eq m hpay c t) cover

/-- The whole run: the output array ends at the folded network of the fifteen argument arrays, and the
    arguments are unchanged. -/
theorem run (hpay : PayloadAt) (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25)
          = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m hpay c), (h c).2⟩) (Value.run_blocks m ρ)

end Cert.Mlp.KerArr

end
-- ==== Proof.lean ====
/-
  The certificate: a binarised three-layer perceptron with folded batch normalisation against its plain form.

  Both programs take a batch of 65536 rows of 784 features and, per row, compute
    h₁ = sign (BN₁ (x · sign W₁ᵀ + b₁)),   h₂ = sign (BN₂ (h₁ · sign W₂ᵀ + b₂)),   out = h₂ · sign W₃ᵀ + b₃,
  where BN (h) = (h - μ) · rsqrt (v + ε) · g + β.  The reference clips each normalised value to [-1, 1]
  before taking its sign, which does not change the sign.  The kernel prepares, outside its grid, the signs
  of the three weight matrices and one scale g · rsqrt (v + ε) and one shift β + (b - μ) · g · rsqrt (v + ε) per
  normalised unit, and inside the grid computes D · scale + shift for the product D: the same real number as
  the plain form by distributivity — which holds because every input is a real number and the variances are
  non-negative, so that v + ε is positive and rsqrt (v + ε) is a positive real (at v + ε = 0 it would be +∞,
  and ∞ - ∞ on one side would meet 0 · ∞ on the other).

  The pieces:  `Spec` states both networks as functions of one row;  `Algebra` proves them equal on real
  data with non-negative variances;  `RefRead` reads the plain network off the reference's operations;
  `KerRow` reads the folded network off the kernel body's arithmetic at one place of an output block;
  `KerArr` reads the prepared operands off the operations before the grid, places each block in the output
  array (grid point t writes rows 2048·t … 2048·t + 2047) and concludes that the kernel's result array is the
  folded network of the argument arrays;  `PreReal` decodes the hypothesis on the inputs entry by entry.
-/
import proofs.«123496_j18734647345307_2_alg».proof.Defs
import proofs.«123496_j18734647345307_2_alg».proof.Proof.Gen.Kernel
import proofs.«123496_j18734647345307_2_alg».proof.Proof.Gen.Kernel.Frame
import proofs.«123496_j18734647345307_2_alg».proof.Proof.Gen.KernelIdeal
import proofs.«123496_j18734647345307_2_alg».proof.Proof.Gen.KernelIdeal.Frame
import proofs.«123496_j18734647345307_2_alg».proof.Proof.Gen.KernelIdeal.Value
import proofs.«123496_j18734647345307_2_alg».proof.Proof.Gen.ReferenceIdeal
import proofs.«123496_j18734647345307_2_alg».proof.Proof.Gen.ReferenceIdeal.Run
import proofs.«123496_j18734647345307_2_alg».proof.Proof.Gen.ReferenceIdeal.Read
import proofs.«123496_j18734647345307_2_alg».proof.Proof.Gen.Pre_finite_inputs
import proofs.«123496_j18734647345307_2_alg».proof.Proof.Spec
import proofs.«123496_j18734647345307_2_alg».proof.Proof.Algebra
import proofs.«123496_j18734647345307_2_alg».proof.Proof.RefRead
import proofs.«123496_j18734647345307_2_alg».proof.Proof.PreReal
import proofs.«123496_j18734647345307_2_alg».proof.Proof.KerRow
import proofs.«123496_j18734647345307_2_alg».proof.Proof.KerArr
import Idealize.ShloMosaic.Adequacy
import Idealize.ShloMosaic.Init

noncomputable section

namespace Cert.Proof

open Idealize.ShloMosaic Idealize.ShloMosaic.TcCoe Idealize.SL.Sem Idealize.ShloMosaic.ValueIdx Cert.Mlp

/-- The word-level kernel runs, faults nowhere and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no grid: its run, with the result forgotten, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The idealization's two rewrites, one per sign taken in the body: 1.0 carrying a value's sign bit, read as
    -1 where the value is negative and 1 elsewhere. -/
theorem preserves : Cert.preserves_Kernel_KernelIdeal :=
  ⟨IdealRules.sign_bit.statement _ _, IdealRules.sign_bit.statement _ _⟩

/-- The two idealized programs end with equal results.  The kernel's result array is the folded network of
    its arguments, the reference's the plain network of its own; the arguments agree; the hypothesis makes
    every entry a real number and the variances non-negative; and on such data the two networks are one
    function. -/
theorem algebraic : Cert.algebraic_KernelIdeal_ReferenceIdeal := by
  intro m ρ m' ρ' hpre hagree
  refine ⟨fun c => outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.Mlp.KerArr.run Cert.Mlp.Ker.out_apply m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v51_eq, Cert.Mlp.Ref.ref_eq,
    a0, a1, a2, a3, a4, a5, a6, a7, a8, a9, a10, a11, a12, a13, a14]
  obtain ⟨h0, -, h2, h3, h4, h5, h6, -, h8, h9, h10, h11, h12, -, -, hv1, hv2⟩ :=
    Cert.Mlp.Pre.of_pre _ _ _ _ _ _ _ _ _ _ _ _ _ _ _ (hpre c)
  exact (outK_eq_outR _ _ _ _ _ _ _ _ _ _ _ _ _ _ _ h0 h2 h3 h4 h5 h6 h8 h9 h10 h11 h12 hv1 hv2).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
